-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S2x100x100 : Shape := ⟨3, ![2, 100, 100]⟩
abbrev S800000 : Shape := ⟨1, ![800000]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S2x100x100 : S_.BroadcastsInDim S2x100x100 (![] : Fin 0 → Fin S2x100x100.rank)
  reducesTo_S2x100x100_S_d0_1_2 : S2x100x100.ReducesTo [0, 1, 2] S_

variable [Facts]

def fn {F : FTy → Type} [FloatOps F] (main_arg0 : FVec F S50000x100 .f32) (main_arg1 : FVec F S2x100x100 .f32) (main_arg2 : IVec S800000 32) (main_arg3 : IVec S800000 32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S2x100x100 .f32 := Host.absf main_arg1
  let main_cst_0 : FVec F S_ .f32 := constant S_ .f32 0x7F800000#32
  let main_v5 : FVec F S2x100x100 .f32 := broadcastInDim S2x100x100 ![] bcast_S_S2x100x100 main_cst_0
  let main_v6 : IVec S2x100x100 1 := cmpf .olt main_v4 main_v5
  let main_c_1 : IVec S_ 1 := constantI S_ 1 1#1
  let main_v7 : IVec S_ 1 := (fun x v => Host.reduce IntOp.andi x v reducesTo_S2x100x100_S_d0_1_2 h_S_) main_v6 main_c_1
  let main_v8 : IVec S_ 1 := andi main_v3 main_v7
  main_v8
-- ==== Kernel.lean ====
abbrev S50000x100 : Shape := ⟨2, ![50000, 100]⟩
abbrev S2x100x100 : Shape := ⟨3, ![2, 100, 100]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x100x100 : Shape := ⟨3, ![1, 100, 100]⟩
abbrev S100x100 : Shape := ⟨2, ![100, 100]⟩
abbrev S5000x100 : Shape := ⟨2, ![5000, 100]⟩
abbrev S850000x100 : Shape := ⟨2, ![850000, 100]⟩
abbrev S5000 : Shape := ⟨1, ![5000]⟩
abbrev S5000x1 : Shape := ⟨2, ![5000, 1]⟩

abbrev nBuf : Space → Nat
  | .hbm => 76
  | .vmem => 22
  | .smem => 0
  | _ => 0

abbrev bufTy : (tb : Table) → Fin (tcTables nBuf tb) → BufTy
  | .hbm, ⟨0, _⟩ => ⟨S50000x100, .f32⟩
  | .hbm, ⟨1, _⟩ => ⟨S2x100x100, .f32⟩
  | .hbm, ⟨2, _⟩ => ⟨S800000, .i32⟩
  | .hbm, ⟨3, _⟩ => ⟨S800000, .i32⟩
  | .hbm, ⟨4, _⟩ => ⟨S50000, .i32⟩
  | .hbm, ⟨5, _⟩ => ⟨S850000, .i32⟩
  | .hbm, ⟨6, _⟩ => ⟨S850000, .i32⟩
  | .hbm, ⟨7, _⟩ => ⟨S_, .f32⟩
  | .hbm, ⟨8, _⟩ => ⟨S850000, .f32⟩
  | .hbm, ⟨9, _⟩ => ⟨S_, .f32⟩
  | .hbm, ⟨10, _⟩ => ⟨S50000, .f32⟩
  | .hbm, ⟨11, _⟩ => ⟨S850000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S2x100x100, .f32⟩
  | .hbm, ⟨33, _⟩ => ⟨S_, .f32⟩
  | .hbm, ⟨34, _⟩ => ⟨S50000x100, .f32⟩
  | .hbm, ⟨35, _⟩ => ⟨S50000x100, .f32⟩
  | .hbm, ⟨36, _⟩ => ⟨S1x100x100, .f32⟩
  | .hbm, ⟨37, _⟩ => ⟨S100x100, .f32⟩
  | .hbm, ⟨38, _⟩ => ⟨S50000x100, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000x100, .f32⟩
  | .hbm, ⟨48, _⟩ => ⟨S850000x1, .f32⟩
  | .hbm, ⟨49, _⟩ => ⟨S850000x100, .f32⟩
  | .hbm, ⟨50, _⟩ => ⟨S850000x100, .f32⟩
  | .hbm, ⟨51, _⟩ => ⟨S_, .f32⟩
  | .hbm, ⟨52, _⟩ => ⟨S50000x100, .f32⟩
  | .hbm, ⟨53, _⟩ => ⟨S850000x1, .i32⟩
  | .hbm, ⟨54, _⟩ => ⟨S50000x100, .f32⟩
  | .hbm, ⟨55, _⟩ => ⟨S50000x100, .f32⟩
  | .hbm, ⟨56, _⟩ => ⟨S1x100x100, .f32⟩
  | .hbm, ⟨57, _⟩ => ⟨S100x100, .f32⟩
  | .hbm, ⟨58, _⟩ => ⟨S50000x100, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x100, .f32⟩
  | .hbm, ⟨68, _⟩ => ⟨S850000x1, .f32⟩
  | .hbm, ⟨69, _⟩ => ⟨S850000x100, .f32⟩
  | .hbm, ⟨70, _⟩ => ⟨S850000x100, .f32⟩
  | .hbm, ⟨71, _⟩ => ⟨S_, .f32⟩
  | .hbm, ⟨72, _⟩ => ⟨S50000x100, .f32⟩
  | .hbm, ⟨73, _⟩ => ⟨S850000x1, .i32⟩
  | .hbm, ⟨74, _⟩ => ⟨S50000x100, .f32⟩
  | .hbm, ⟨75, _⟩ => ⟨S50000x100, .f32⟩
  | .local _ .vmem, ⟨0, _⟩ => ⟨S5000x100, .f32⟩
  | .local _ .vmem, ⟨1, _⟩ => ⟨S5000x100, .f32⟩
  | .local _ .vmem, ⟨2, _⟩ => ⟨S100x100, .f32⟩
  | .local _ .vmem, ⟨3, _⟩ => ⟨S5000x100, .f32⟩
  | .local _ .vmem, ⟨4, _⟩ => ⟨S5000x100, .f32⟩
  | .local _ .vmem, ⟨5, _⟩ => ⟨S5000x100, .f32⟩
  | .local _ .vmem, ⟨6, _⟩ => ⟨S5000x100, .f32⟩
  | .local _ .vmem, ⟨7, _⟩ => ⟨S5000x100, .f32⟩
  | .local _ .vmem, ⟨8, _⟩ => ⟨S5000x100, .f32⟩
  | .local _ .vmem, ⟨9, _⟩ => ⟨S5000x100, .f32⟩
  | .local _ .vmem, ⟨10, _⟩ => ⟨S5000x100, .f32⟩
  | .local _ .vmem, ⟨11, _⟩ => ⟨S5000x100, .f32⟩
  | .local _ .vmem, ⟨12, _⟩ => ⟨S5000x100, .f32⟩
  | .local _ .vmem, ⟨13, _⟩ => ⟨S100x100, .f32⟩
  | .local _ .vmem, ⟨14, _⟩ => ⟨S5000x100, .f32⟩
  | .local _ .vmem, ⟨15, _⟩ => ⟨S5000x100, .f32⟩
  | .local _ .vmem, ⟨16, _⟩ => ⟨S5000x100, .f32⟩
  | .local _ .vmem, ⟨17, _⟩ => ⟨S5000x100, .f32⟩
  | .local _ .vmem, ⟨18, _⟩ => ⟨S5000x100, .f32⟩
  | .local _ .vmem, ⟨19, _⟩ => ⟨S5000x100, .f32⟩
  | .local _ .vmem, ⟨20, _⟩ => ⟨S5000x100, .f32⟩
  | .local _ .vmem, ⟨21, _⟩ => ⟨S5000x100, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S100x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x100 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x100 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x100 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S2x100x100_S2x100x100_0_2_1 : S2x100x100.Transposes [0, 2, 1] S2x100x100
  bcast_S_S50000x100 : S_.BroadcastsInDim S50000x100 (![] : Fin 0 → Fin S50000x100.rank)
  slices_S2x100x100_S1x100x100_0_0_0 : S2x100x100.Slices ![0, 0, 0] S1x100x100
  shapeCasts_S1x100x100_S100x100 : S1x100x100.ShapeCasts S100x100
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  shapeCasts_S100x100_S100x100 : S100x100.ShapeCasts S100x100
  bcast_S850000x1_S850000x100_0_1 : S850000x1.BroadcastsInDim S850000x100 (![0, 1] : Fin 2 → Fin S850000x100.rank)
  shapeCasts_S5000x100_S5000x100 : S5000x100.ShapeCasts S5000x100
  reduces_S5000x100_S5000 : S5000x100.Reduces [1] S5000
  shapeCasts_S5000_S5000x1 : S5000.ShapeCasts S5000x1
  broadcasts_S5000x1_S5000x100 : S5000x1.Broadcasts S5000x100
  slices_S2x100x100_S1x100x100_1_0_0 : S2x100x100.Slices ![1, 0, 0] S1x100x100
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x100_S100x100_S5000x100_1_0_0_1_n_n_wf : DotDims.WF S5000x100 S100x100 S5000x100 [1] [0] [0] [1] [] []
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .f32 = 32 ∨ (Rect.block (s := S100x100) S100x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x100.size a ≤ S50000x100.size a
  hwx0_2 : ∀ i : grid0.Coords, EltTy.bits .f32 = 32 ∨ (Rect.block (s := S50000x100) S5000x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S50000x100.size a
  hwx1_0 : ∀ i : grid1.Coords, EltTy.bits .f32 = 32 ∨ (Rect.block (s := S50000x100) S5000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x100.size a ≤ S50000x100.size a
  hwx1_1 : ∀ i : grid1.Coords, EltTy.bits .f32 = 32 ∨ (Rect.block (s := S50000x100) S5000x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x100.size a ≤ S50000x100.size a
  hwx1_2 : ∀ i : grid1.Coords, EltTy.bits .f32 = 32 ∨ (Rect.block (s := S50000x100) S5000x100.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x100.size a ≤ S50000x100.size a
  hwx2_0 : ∀ i : grid2.Coords, EltTy.bits .f32 = 32 ∨ (Rect.block (s := S50000x100) S5000x100.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S100x100.size a ≤ S100x100.size a
  hwx2_1 : ∀ i : grid2.Coords, EltTy.bits .f32 = 32 ∨ (Rect.block (s := S100x100) S100x100.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x100.size a ≤ S50000x100.size a
  hwx2_2 : ∀ i : grid2.Coords, EltTy.bits .f32 = 32 ∨ (Rect.block (s := S50000x100) S5000x100.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x100.size a ≤ S50000x100.size a
  hwx3_0 : ∀ i : grid3.Coords, EltTy.bits .f32 = 32 ∨ (Rect.block (s := S50000x100) S5000x100.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x100.size a ≤ S50000x100.size a
  hwx3_1 : ∀ i : grid3.Coords, EltTy.bits .f32 = 32 ∨ (Rect.block (s := S50000x100) S5000x100.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x100.size a ≤ S50000x100.size a
  hwx3_2 : ∀ i : grid3.Coords, EltTy.bits .f32 = 32 ∨ (Rect.block (s := S50000x100) S5000x100.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x100_S100x100_S5000x100_1_0_0_1_n_n : DotDims S5000x100 S100x100 S5000x100 where
  lhsContracting := [1]
  rhsContracting := [0]
  lhsNonContracting := [0]
  rhsNonContracting := [1]
  lhsBatch := []
  rhsBatch := []
  wf := dot_S5000x100_S100x100_S5000x100_1_0_0_1_n_n_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x100.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S5000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S100x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5000x100.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S5000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x100.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S5000x100.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x100 : Shape := ⟨2, ![50000, 100]⟩
abbrev S2x100x100 : Shape := ⟨3, ![2, 100, 100]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x100x100 : Shape := ⟨3, ![1, 100, 100]⟩
abbrev S100x100 : Shape := ⟨2, ![100, 100]⟩
abbrev S850000x100 : Shape := ⟨2, ![850000, 100]⟩
abbrev S50000x1 : Shape := ⟨2, ![50000, 1]⟩

abbrev nBuf : Space → Nat
  | .hbm => 103
  | .vmem => 0
  | .smem => 0
  | _ => 0

abbrev bufTy : (tb : Table) → Fin (tcTables nBuf tb) → BufTy
  | .hbm, ⟨0, _⟩ => ⟨S50000x100, .f32⟩
  | .hbm, ⟨1, _⟩ => ⟨S2x100x100, .f32⟩
  | .hbm, ⟨2, _⟩ => ⟨S800000, .i32⟩
  | .hbm, ⟨3, _⟩ => ⟨S800000, .i32⟩
  | .hbm, ⟨4, _⟩ => ⟨S50000, .i32⟩
  | .hbm, ⟨5, _⟩ => ⟨S850000, .i32⟩
  | .hbm, ⟨6, _⟩ => ⟨S850000, .i32⟩
  | .hbm, ⟨7, _⟩ => ⟨S_, .f32⟩
  | .hbm, ⟨8, _⟩ => ⟨S850000, .f32⟩
  | .hbm, ⟨9, _⟩ => ⟨S_, .f32⟩
  | .hbm, ⟨10, _⟩ => ⟨S50000, .f32⟩
  | .hbm, ⟨11, _⟩ => ⟨S850000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .f32⟩
  | .hbm, ⟨33, _⟩ => ⟨S50000x100, .f32⟩
  | .hbm, ⟨34, _⟩ => ⟨S50000x100, .f32⟩
  | .hbm, ⟨35, _⟩ => ⟨S1x100x100, .f32⟩
  | .hbm, ⟨36, _⟩ => ⟨S100x100, .f32⟩
  | .hbm, ⟨37, _⟩ => ⟨S100x100, .f32⟩
  | .hbm, ⟨38, _⟩ => ⟨S50000x100, .f32⟩
  | .hbm, ⟨39, _⟩ => ⟨S850000x1, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x100, .f32⟩
  | .hbm, ⟨49, _⟩ => ⟨S850000x100, .f32⟩
  | .hbm, ⟨50, _⟩ => ⟨S850000x100, .f32⟩
  | .hbm, ⟨51, _⟩ => ⟨S_, .f32⟩
  | .hbm, ⟨52, _⟩ => ⟨S50000x100, .f32⟩
  | .hbm, ⟨53, _⟩ => ⟨S850000x1, .i32⟩
  | .hbm, ⟨54, _⟩ => ⟨S50000x100, .f32⟩
  | .hbm, ⟨55, _⟩ => ⟨S50000x100, .f32⟩
  | .hbm, ⟨56, _⟩ => ⟨S_, .f32⟩
  | .hbm, ⟨57, _⟩ => ⟨S50000, .f32⟩
  | .hbm, ⟨58, _⟩ => ⟨S50000x1, .f32⟩
  | .hbm, ⟨59, _⟩ => ⟨S50000x1, .f32⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S50000x100, .f32⟩
  | .hbm, ⟨64, _⟩ => ⟨S50000x100, .f32⟩
  | .hbm, ⟨65, _⟩ => ⟨S_, .f32⟩
  | .hbm, ⟨66, _⟩ => ⟨S50000x100, .f32⟩
  | .hbm, ⟨67, _⟩ => ⟨S50000x100, .f32⟩
  | .hbm, ⟨68, _⟩ => ⟨S50000x100, .f32⟩
  | .hbm, ⟨69, _⟩ => ⟨S1x100x100, .f32⟩
  | .hbm, ⟨70, _⟩ => ⟨S100x100, .f32⟩
  | .hbm, ⟨71, _⟩ => ⟨S100x100, .f32⟩
  | .hbm, ⟨72, _⟩ => ⟨S50000x100, .f32⟩
  | .hbm, ⟨73, _⟩ => ⟨S850000x1, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x100, .f32⟩
  | .hbm, ⟨83, _⟩ => ⟨S850000x100, .f32⟩
  | .hbm, ⟨84, _⟩ => ⟨S850000x100, .f32⟩
  | .hbm, ⟨85, _⟩ => ⟨S_, .f32⟩
  | .hbm, ⟨86, _⟩ => ⟨S50000x100, .f32⟩
  | .hbm, ⟨87, _⟩ => ⟨S850000x1, .i32⟩
  | .hbm, ⟨88, _⟩ => ⟨S50000x100, .f32⟩
  | .hbm, ⟨89, _⟩ => ⟨S50000x100, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S_, .f32⟩
  | .hbm, ⟨95, _⟩ => ⟨S50000x1, .f32⟩
  | .hbm, ⟨96, _⟩ => ⟨S50000x1, .f32⟩
  | .hbm, ⟨97, _⟩ => ⟨S50000x100, .f32⟩
  | .hbm, ⟨98, _⟩ => ⟨S50000x100, .f32⟩
  | .hbm, ⟨99, _⟩ => ⟨S_, .f32⟩
  | .hbm, ⟨100, _⟩ => ⟨S50000x100, .f32⟩
  | .hbm, ⟨101, _⟩ => ⟨S50000x100, .f32⟩
  | .hbm, ⟨102, _⟩ => ⟨S50000x100, .f32⟩
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_v0 : Ref sig .tc := ⟨.hbm, 55, rfl⟩
abbrev main_call1_cst : Ref sig .tc := ⟨.hbm, 56, rfl⟩
abbrev main_call1_v1 : Ref sig .tc := ⟨.hbm, 57, rfl⟩
abbrev main_call1_v2 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call2_v0 : Ref sig .tc := ⟨.hbm, 89, rfl⟩
abbrev main_call2_cst : Ref sig .tc := ⟨.hbm, 90, rfl⟩
abbrev main_call2_v1 : Ref sig .tc := ⟨.hbm, 91, rfl⟩
abbrev main_call2_v2 : Ref sig .tc := ⟨.hbm, 92, rfl⟩
abbrev main_v63 : Ref sig .tc := ⟨.hbm, 93, rfl⟩
abbrev main_cst_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S50000x100 : S_.BroadcastsInDim S50000x100 (![] : Fin 0 → Fin S50000x100.rank)
  slices_S2x100x100_S1x100x100_0_0_0 : S2x100x100.Slices ![0, 0, 0] S1x100x100
  shapeCasts_S1x100x100_S100x100 : S1x100x100.ShapeCasts S100x100
  transposes_S100x100_S100x100_1_0 : S100x100.Transposes [1, 0] S100x100
  bcast_S850000x1_S850000x100_0_1 : S850000x1.BroadcastsInDim S850000x100 (![0, 1] : Fin 2 → Fin S850000x100.rank)
  reducesTo_S50000x100_S50000_d1 : S50000x100.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x100_0_1 : S50000x1.BroadcastsInDim S50000x100 (![0, 1] : Fin 2 → Fin S50000x100.rank)
  slices_S2x100x100_S1x100x100_1_0_0 : S2x100x100.Slices ![1, 0, 0] S1x100x100
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x100_S100x100_S50000x100_1_0_0_1_n_n_wf : DotDims.WF S50000x100 S100x100 S50000x100 [1] [0] [0] [1] [] []
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x100_S100x100_S50000x100_1_0_0_1_n_n : DotDims S50000x100 S100x100 S50000x100 where
  lhsContracting := [1]
  rhsContracting := [0]
  lhsNonContracting := [0]
  rhsNonContracting := [1]
  lhsBatch := []
  rhsBatch := []
  wf := dot_S50000x100_S100x100_S50000x100_1_0_0_1_n_n_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf

class Facts : Prop extends Facts₀ where

variable [Facts]
-- ==== Proof.KRun.lean ====
/-
  The idealized kernel program's run, read at its result buffer.

  The program is four kernel regions among stretches of host operations.  Its run from any launch memory ends with
  every buffer that is not a staging buffer at the contents the fold of the segments leaves (`Gen.W10`): a host
  stretch applies its operations, a region puts at each output array what its write-backs leave and keeps the rest.
  Read at the result buffer this gives the result; read at the four arguments it gives back the launch contents.
-/
import proofs.«163798_j63307817943427_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents, the arguments as launched. -/
theorem run_result : θ_run defs (onTc (τ := τ) (main (F := F))) ⟨m, fun _ => 0, ρ⟩ (fun r => ∀ c : Dev nD,
      r.2.mem ((c.tc : Thread nD τ).loc main_v55) = W10 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v55 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c)⟩)

end Cert.KernelIdeal.Hand

end
-- ==== Proof.Layer.lean ====
/-
  The two dense steps of a layer, as functions of whole arrays read entry by entry over the extended reals.

  * The linear projection: entry (p, q) of x · w is the sum over k of x (p, k) times w (k, q).
  * The normalised running average: entry (p, q) is avg (p, q) plus x (p, q) divided by the larger of the
    Euclidean norm of row p of x and a fixed positive word, the quotient scaled by a fixed word.
-/
import Idealize.ShloMosaic.PureOps.Ideal
import Idealize.ShloMosaic.PureOps.Ideal.Laws
import Idealize.ShloMosaic.Lib.ValueIdx

noncomputable section

open scoped BigOperators

namespace Cert.Layer

open Idealize.ShloMosaic Idealize.ShloMosaic.ValueIdx

/-- The node-feature arrays. -/
abbrev SN : Shape := ⟨2, ![50000, 100]⟩
/-- One layer's weight matrix. -/
abbrev SM : Shape := ⟨2, ![100, 100]⟩

/-- Entry (p, q) of the product x · w. -/
def linAt (x : SN.Idx → EReal) (w : SM.Idx → EReal) (p : Fin 50000) (q : Fin 100) : EReal :=
  ∑ k : Fin 100, x (ix2 p k) * w (ix2 k q)

/-- The product x · w. -/
def lin (x : SN.Idx → EReal) (w : SM.Idx → EReal) : SN.Idx → EReal :=
  fun i => linAt x w (i 0) (i 1)

/-- The sum of the squares of row p of x. -/
def rowSq (x : SN.Idx → EReal) (p : Fin 50000) : EReal := ∑ k : Fin 100, x (ix2 p k) * x (ix2 p k)

/-- Entry (p, q) of the running average after adding row-normalised x. -/
def normAvgAt (x avg : SN.Idx → EReal) (p : Fin 50000) (q : Fin 100) : EReal :=
  avg (ix2 p q) + Ideal.div (x (ix2 p q)) (max (Ideal.sqrt (rowSq x p)) (Ideal.ofBits .f32 0x2B8CBCCC#32))
    * Ideal.ofBits .f32 0x3EAAAAAB#32

/-- The running average after adding row-normalised x. -/
def normAvg (x avg : SN.Idx → EReal) : SN.Idx → EReal :=
  fun i => normAvgAt x avg (i 0) (i 1)

/-- The product read at an index with known coordinates. -/
theorem lin_of_coords (x : SN.Idx → EReal) (w : SM.Idx → EReal) (i : SN.Idx) (p : Fin 50000) (q : Fin 100)
    (h0 : (i 0).val = p.val) (h1 : (i 1).val = q.val) : lin x w i = linAt x w p q := by
  have e : i = ix2 p q := funext fun a => Fin.ext (by
    match a with
    | ⟨0, _⟩ => exact h0
    | ⟨1, _⟩ => exact h1)
  rw [e]; rfl

/-- The running average read at an index with known coordinates. -/
theorem normAvg_of_coords (x avg : SN.Idx → EReal) (i : SN.Idx) (p : Fin 50000) (q : Fin 100)
    (h0 : (i 0).val = p.val) (h1 : (i 1).val = q.val) : normAvg x avg i = normAvgAt x avg p q := by
  have e : i = ix2 p q := funext fun a => Fin.ext (by
    match a with
    | ⟨0, _⟩ => exact h0
    | ⟨1, _⟩ => exact h1)
  rw [e]; rfl

theorem lin_apply (x : SN.Idx → EReal) (w : SM.Idx → EReal) (p : Fin 50000) (q : Fin 100) :
    lin x w (ix2 p q) = linAt x w p q := rfl

theorem normAvg_apply (x avg : SN.Idx → EReal) (p : Fin 50000) (q : Fin 100) :
    normAvg x avg (ix2 p q) = normAvgAt x avg p q := rfl

end Cert.Layer

end
-- ==== Proof.Sparse.lean ====
/-
  The host operations the two programs share, as functions of whole arrays.

  * The edge list with one self loop per node appended.
  * The per-edge weight: the reciprocal of the destination's degree (the number of edges, self loop included, that
    end there), gathered at each edge's destination.
  * The aggregation: a row gather at the edges' sources, each gathered row scaled by its edge's weight, summed into the
    edges' destinations.
  * A layer's weight matrix, as the product reads it: the stacked weights with their last two axes exchanged, sliced at
    the layer, the unit axis dropped.
  * The running average's first term: the features times a fixed word.
  They are applied, never opened: both programs apply the same operations to values that are shown equal.
-/
import proofs.«163798_j63307817943427_1_alg».proof.Proof.Gen.KernelIdeal
import proofs.«163798_j63307817943427_1_alg».proof.Proof.Layer
import Idealize.ShloMosaic.PureOps.Ideal

noncomputable section

namespace Cert.KernelIdeal.Hand

open Cert.KernelIdeal Cert.KernelIdeal.Facts₀ Cert.KernelIdeal.Facts
open Idealize.ShloMosaic

/-- An edge-index argument. -/
abbrev EdgeArg := (⟨S800000, .i32⟩ : BufTy).Contents (Elt Ideal)
/-- An index per edge, self loops included. -/
abbrev EdgeIdx := (⟨S850000, .i32⟩ : BufTy).Contents (Elt Ideal)
/-- A weight per edge. -/
abbrev EdgeW := (⟨S850000, .f32⟩ : BufTy).Contents (Elt Ideal)
/-- A node-feature array. -/
abbrev Feat := (⟨S50000x100, .f32⟩ : BufTy).Contents (Elt Ideal)
/-- The stacked weights. -/
abbrev Wts := (⟨S2x100x100, .f32⟩ : BufTy).Contents (Elt Ideal)
/-- One layer's matrix. -/
abbrev Mat := (⟨S100x100, .f32⟩ : BufTy).Contents (Elt Ideal)

/-- The edge endpoints followed by one self loop per node. -/
def withLoops (a : EdgeArg) : EdgeIdx :=
  concatenate S850000 0 [⟨S800000, a⟩, ⟨S50000, iotaInDim S50000 32 0⟩] concatenates_S800000_S50000_S850000_d0

/-- A start index made non-negative: a negative word has the extent added. -/
def wrapIdx (s : EdgeIdx) : EdgeIdx :=
  select (cmpi .slt s (broadcastInDim S850000 ![] bcast_S_S850000 (constantI S_ 32 0#32)))
    (addi s (broadcastInDim S850000 ![] bcast_S_S850000 (constantI S_ 32 50000#32))) s

/-- The number of edges ending at each node. -/
def degree (d : EdgeIdx) : (⟨S50000, .f32⟩ : BufTy).Contents (Elt Ideal) :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

/-- Whether a node has an edge ending at it. -/
def hasEdge (d : EdgeIdx) : (⟨S50000, .i1⟩ : BufTy).Contents (Elt Ideal) :=
  cmpf (F := Ideal) .ogt (degree d) (broadcastInDim S50000 ![] bcast_S_S50000 (constant (F := Ideal) S_ .f32 0x00000000#32))

/-- The reciprocal of each node's degree. -/
def recipDegree (d : EdgeIdx) : (⟨S50000, .f32⟩ : BufTy).Contents (Elt Ideal) :=
  Host.divf (F := Ideal) (broadcastInDim S50000 ![] bcast_S_S50000 (constant (F := Ideal) S_ .f32 0x3F800000#32)) (degree d)

/-- A node's weight, chosen between the reciprocal degree and the splat of a fallback word. -/
def nodeWeight (g : (⟨S50000, .i1⟩ : BufTy).Contents (Elt Ideal)) (r : (⟨S50000, .f32⟩ : BufTy).Contents (Elt Ideal))
    (z : (⟨S_, .f32⟩ : BufTy).Contents (Elt Ideal)) : (⟨S50000, .f32⟩ : BufTy).Contents (Elt Ideal) :=
  select g r (broadcastInDim S50000 ![] bcast_S_S50000 (id z))

/-- The node weights gathered at each edge's destination. -/
def gatherWeight (nw : (⟨S50000, .f32⟩ : BufTy).Contents (Elt Ideal)) (d : EdgeIdx) : EdgeW :=
  Host.gather gather_S50000_S850000x1_S850000_n_0_n_n_0_1_1 nw
    (broadcastInDim S850000x1 ![0] bcast_S850000_S850000x1_0 (wrapIdx d))

/-- Each edge's weight: the reciprocal of its destination's degree where that is positive, zero elsewhere. -/
def edgeWeight (d : EdgeIdx) : EdgeW :=
  gatherWeight (nodeWeight (hasEdge d) (recipDegree d) (constant (F := Ideal) S_ .f32 0x00000000#32)) d

/-- The weighted sum, at each node, of the rows of `y` at the sources of the edges ending there. -/
def aggregate (y : Feat) (s d : EdgeIdx) (w : EdgeW) : Feat :=
  Host.scatterAdd (F := Ideal) scatter_S50000x100_S850000x1_S850000x100_1_0_0_1
    (broadcastInDim S50000x100 ![] bcast_S_S50000x100 (constant (F := Ideal) S_ .f32 0x00000000#32))
    (broadcastInDim S850000x1 ![0] bcast_S850000_S850000x1_0 d)
    (mulf (F := Ideal) (broadcastInDim S850000x100 ![0, 1] bcast_S850000x1_S850000x100_0_1
        (broadcastInDim S850000x1 ![0] bcast_S850000_S850000x1_0 w))
      (Host.gather gather_S50000x100_S850000x1_S850000x100_1_0_n_n_0_1_1100 y
        (broadcastInDim S850000x1 ![0] bcast_S850000_S850000x1_0 (wrapIdx s))))

/-- The stacked weights with their last two axes exchanged. -/
def swapped (W : Wts) : Wts := transpose S2x100x100 [0, 2, 1] W transposes_S2x100x100_S2x100x100_0_2_1

/-- Layer 0's matrix as the product reads it. -/
def layerMat0 (W : Wts) : Mat :=
  shapeCast S100x100 (extractStridedSlice S1x100x100 ![0, 0, 0] (swapped W) slices_S2x100x100_S1x100x100_0_0_0)
    shapeCasts_S1x100x100_S100x100

/-- Layer 1's matrix as the product reads it. -/
def layerMat1 (W : Wts) : Mat :=
  shapeCast S100x100 (extractStridedSlice S1x100x100 ![1, 0, 0] (swapped W) slices_S2x100x100_S1x100x100_1_0_0)
    shapeCasts_S1x100x100_S100x100

/-- The running average before the first layer. -/
def avgStart (x : Feat) : Feat :=
  mulf (F := Ideal) x (broadcastInDim S50000x100 ![] bcast_S_S50000x100 (constant (F := Ideal) S_ .f32 0x3EAAAAAB#32))

/-- The whole program's result as one function of the four arguments: two layers of projection, aggregation and
    normalised averaging. -/
def result (x : Feat) (W : Wts) (a2 a3 : EdgeArg) : Feat :=
  Cert.Layer.normAvg
    (aggregate (Cert.Layer.lin (aggregate (Cert.Layer.lin x (layerMat0 W)) (withLoops a2) (withLoops a3) (edgeWeight (withLoops a3)))
      (layerMat1 W)) (withLoops a2) (withLoops a3) (edgeWeight (withLoops a3)))
    (Cert.Layer.normAvg (aggregate (Cert.Layer.lin x (layerMat0 W)) (withLoops a2) (withLoops a3) (edgeWeight (withLoops a3)))
      (avgStart x))

end Cert.KernelIdeal.Hand

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibPlainDot.lean ====
/-
  A plain matrix product read at an entry.

  A product of an [M, K] array with a [K, N] array that contracts the left operand's second axis with the right
  operand's first axis and has no batch axis: the sum over its one-axis contraction index, read at the output entry
  (p, q), is the textbook sum over i of the left operand at (p, i) times the right operand at (i, q).
-/
import Idealize.ShloMosaic.PureOps.Ideal
import Idealize.ShloMosaic.PureOps.Ideal.Laws
import Idealize.ShloMosaic.Lib.ValueIdx
import proofs.«163798_j63307817943427_1_alg».proof.Proof.LibDotSum

noncomputable section

namespace Cert.LibPlainDot

open Idealize.ShloMosaic Idealize.ShloMosaic.ValueIdx

variable {M K N : ℕ} (D : DotDims ⟨2, ![M, K]⟩ ⟨2, ![K, N]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (i, q). -/
theorem rhsIdx_eq (hlc : D.lhsContracting = [1]) (hrc : D.rhsContracting = [0]) (hlb : D.lhsBatch = [])
    (hrb : D.rhsBatch = []) (hln : D.lhsNonContracting = [0]) (hrn : D.rhsNonContracting = [1])
    (p : Fin M) (q : Fin N) (i : Fin K) :
    D.rhsIdx (ix2 p q) ((contrEquiv1 D K (rank_contr_one D hlc) (size_contr_K D hlc)).symm i) = ix2 i q := by
  funext a
  apply Fin.ext
  match a with
  | ⟨0, _⟩ =>
    have h := D.rhsIdx_val_of_single (cr := (0 : Fin 2)) hrc (ix2 p q)
      ((contrEquiv1 D K (rank_contr_one D hlc) (size_contr_K D hlc)).symm i)
    refine h.trans ?_
    exact contrEquiv1_symm_val D K (rank_contr_one D hlc) (size_contr_K D hlc) i
  | ⟨1, _⟩ =>
    unfold DotDims.rhsIdx
    have hb : (⟨1, by decide⟩ : Fin 2) ∉ D.rhsBatch := by rw [hrb]; exact List.not_mem_nil
    have hn : (⟨1, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])

/-- The product's sum at entry (p, q) is the sum over i of left (p, i) times right (i, q). -/
theorem sum_plain (hlc : D.lhsContracting = [1]) (hrc : D.rhsContracting = [0]) (hlb : D.lhsBatch = [])
    (hrb : D.rhsBatch = []) (hln : D.lhsNonContracting = [0]) (hrn : D.rhsNonContracting = [1])
    (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = ∑ i : Fin K, f (ix2 p i) * g (ix2 i q) :=
  Cert.LibDotSum.sum_contr_eq D K (rank_contr_one D hlc) (size_contr_K D hlc) f g (ix2 p q)
    (fun i => f (ix2 p i)) (fun i => g (ix2 i q))
    (fun i => congrArg f (lhsIdx_eq D hlc hlb hln p q i))
    (fun i => congrArg g (rhsIdx_eq D hlc hrc hlb hrb hln hrn p q i))

end Cert.LibPlainDot

end
-- ==== Proof.LibMatmulAnyFormat.lean ====
/-
  A plain matrix product accumulated into the zero array, read at an entry, for operands of any float formats.

  Over the extended reals a float's format carries no information, so the product of an [M, K] array with a
  [K, N] array, whatever the two formats, started from the array of zeros, holds at (p, q) the textbook sum over
  i of left (p, i) times right (i, q).
-/
import Idealize.ShloMosaic.PureOps.Ideal
import Idealize.ShloMosaic.PureOps.Ideal.Laws
import Idealize.ShloMosaic.Lib.ValueIdx
import proofs.«163798_j63307817943427_1_alg».proof.Proof.LibPlainDot

noncomputable section

open scoped BigOperators

namespace Cert.LibMatmulAnyFormat

open Idealize.ShloMosaic Idealize.ShloMosaic.ValueIdx

/-- A plain matrix product into the zero array at (p, q): the sum over i of left (p, i) times right (i, q), the
    operands' formats arbitrary. -/
theorem matmul_zero_entry {M K N : ℕ} {φ₁ φ₂ : FTy} (D : DotDims ⟨2, ![M, K]⟩ ⟨2, ![K, N]⟩ ⟨2, ![M, N]⟩)
    (hlc : D.lhsContracting = [1]) (hrc : D.rhsContracting = [0]) (hlb : D.lhsBatch = []) (hrb : D.rhsBatch = [])
    (hln : D.lhsNonContracting = [0]) (hrn : D.rhsNonContracting = [1]) (prec : Option ContractPrecision)
    (L : FVec Ideal ⟨2, ![M, K]⟩ φ₁) (R : FVec Ideal ⟨2, ![K, N]⟩ φ₂) (p : Fin M) (q : Fin N) :
    matmul D prec L R (constant ⟨2, ![M, N]⟩ .f32 0x00000000#32) (ix2 p q) = ∑ i : Fin K, L (ix2 p i) * R (ix2 i q) :=
  (Ideal.matmul_constant_zero_apply D prec L R (ix2 p q)).trans
    (Cert.LibPlainDot.sum_plain D hlc hrc hlb hrb hln hrn L R p q)

end Cert.LibMatmulAnyFormat

end
-- ==== Proof.LibColumnCast.lean ====
/-
  A vector reshaped to a column.
-/
import Idealize.ShloMosaic.Lib.Pipeline.Value
import Idealize.ShloMosaic.Lib.ValueIdx

namespace Cert.Lib

open Idealize.ShloMosaic Idealize.ShloMosaic.ValueIdx

/-- An `[a]` array reshaped to the column `[a, 1]` reads, at `(i, u)`, the operand at `i`, whatever the unit
    coordinate `u`: both positions have the same row-major offset `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibColumnBroadcast.lean ====
/-
  A column broadcast along its rows.
-/
import Idealize.ShloMosaic.Lib.Pipeline.Value
import Idealize.ShloMosaic.Lib.ValueIdx

namespace Cert.Lib

open Idealize.ShloMosaic Idealize.ShloMosaic.ValueIdx

/-- An `[a, 1]` column broadcast to `[a, b]` reads, at `(p, c)`, the column's entry in row `p`: the unit axis
    is read at `0` whatever the column `c`, the row axis is carried over. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KPayload.lean ====
/-
  The two kernel bodies' stored values, read at an entry over the extended reals.

  * The linear body stores the product of its row block with the weight block into a zero accumulator, both operands
    first narrowed to a shorter float format (the identity on extended reals): entry (p, q) is the sum over k of
    x (p, k) times w (k, q).
  * The normalising body stores avg + (x / max(sqrt(row sum of x²), ε)) · s: the row sum is a lane reduction, made a
    column, compared with the splat of ε, broadcast back along the row.
-/
import proofs.«163798_j63307817943427_1_alg».proof.Proof.Gen.KernelIdeal.Skeleton
import proofs.«163798_j63307817943427_1_alg».proof.Proof.LibMatmulAnyFormat
import proofs.«163798_j63307817943427_1_alg».proof.Proof.LibColumnCast
import proofs.«163798_j63307817943427_1_alg».proof.Proof.LibColumnBroadcast
import Idealize.ShloMosaic.PureOps.Ideal.Laws
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.ValueIdx

/-- Over a row index p, the index of the [a, b] array with column k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A lane sum from the zero word over the second axis of an [a, b] array, at row p: the sum over k of the entry (p, k). -/
theorem rowsum_apply {a b : ℕ} (v : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ) (p : Fin a) :
    multiReduction .add [1] ⟨1, ![a]⟩ v 0x00000000#32 h hφ hacc (ix1 p) = ∑ k : Fin b, v (ix2 p k) :=
  (Ideal.multiReduction_add_single v _ h hφ hacc (ix1 p)).trans
    (Finset.sum_congr rfl fun k _ => congrArg v (lift_row h p k))

/-- The clamped row norm, broadcast along the row, at (p, q). -/
theorem norm_col {a b : ℕ} (x : FVec Ideal ⟨2, ![a, b]⟩ .f32)
    (h1 : (⟨2, ![a, b]⟩ : Shape).Reduces [1] (⟨1, ![a]⟩ : Shape)) (hφ : FKind.Formats .f32)
    (hacc : (0x00000000#32 : BitVec 32) = FKind.add.neutral .f32 hφ)
    (h2 : (⟨1, ![a]⟩ : Shape).ShapeCasts ⟨2, ![a, 1]⟩) (hb : (⟨2, ![a, 1]⟩ : Shape).Broadcasts ⟨2, ![a, b]⟩)
    (ε : BitVec 32) (p : Fin a) (q : Fin b) :
    broadcastTo ⟨2, ![a, b]⟩ (maximumf (sqrt (shapeCast ⟨2, ![a, 1]⟩
        (multiReduction .add [1] ⟨1, ![a]⟩ (mulf x x) 0x00000000#32 h1 hφ hacc) h2))
      (broadcast ⟨2, ![a, 1]⟩ (Scalar.ofBits (F := Ideal) .f32 ε))) hb (ix2 p q)
      = max (Ideal.sqrt (∑ k : Fin b, x (ix2 p k) * x (ix2 p k))) (Ideal.ofBits .f32 ε) := by
  rw [Cert.Lib.broadcastTo_a1_ab_apply]
  show max (Ideal.sqrt (shapeCast ⟨2, ![a, 1]⟩ (multiReduction .add [1] ⟨1, ![a]⟩ (mulf x x) 0x00000000#32 h1 hφ hacc) h2
    (ix2 p (0 : Fin 1)))) (Ideal.ofBits .f32 ε) = _
  rw [Cert.Lib.shapeCast_a_a1_apply, rowsum_apply]
  rfl

/-- The linear body's stored value at (p, q). -/
theorem pay_lin0 (x : Vec Ideal S5000x100 .f32) (w : Vec Ideal S100x100 .f32) (p : Fin 5000) (q : Fin 100) :
    k0_pay1 (F := Ideal) x w (ix2 p q) = ∑ k : Fin 100, x (ix2 p k) * w (ix2 k q) := by
  unfold k0_pay1
  simp only [shapeCast_self]
  exact Cert.LibMatmulAnyFormat.matmul_zero_entry dot_S5000x100_S100x100_S5000x100_1_0_0_1_n_n rfl rfl rfl rfl rfl rfl none
    (truncf .bf16 x bitsLt_bf16_f32) (truncf .bf16 w bitsLt_bf16_f32) p q

/-- The second linear body's stored value at (p, q). -/
theorem pay_lin2 (x : Vec Ideal S5000x100 .f32) (w : Vec Ideal S100x100 .f32) (p : Fin 5000) (q : Fin 100) :
    k2_pay1 (F := Ideal) x w (ix2 p q) = ∑ k : Fin 100, x (ix2 p k) * w (ix2 k q) := by
  unfold k2_pay1
  simp only [shapeCast_self]
  exact Cert.LibMatmulAnyFormat.matmul_zero_entry dot_S5000x100_S100x100_S5000x100_1_0_0_1_n_n rfl rfl rfl rfl rfl rfl none
    (truncf .bf16 x bitsLt_bf16_f32) (truncf .bf16 w bitsLt_bf16_f32) p q

/-- The normalising body's stored value at (p, q). -/
theorem pay_norm1 (x a : Vec Ideal S5000x100 .f32) (p : Fin 5000) (q : Fin 100) :
    k1_pay1 (F := Ideal) x a (ix2 p q)
      = a (ix2 p q) + Ideal.div (x (ix2 p q))
          (max (Ideal.sqrt (∑ k : Fin 100, x (ix2 p k) * x (ix2 p k))) (Ideal.ofBits .f32 0x2B8CBCCC#32))
          * Ideal.ofBits .f32 0x3EAAAAAB#32 := by
  unfold k1_pay1
  simp only [shapeCast_self]
  exact congrArg (fun z => a (ix2 p q) + Ideal.div (x (ix2 p q)) z * Ideal.ofBits .f32 0x3EAAAAAB#32)
    (norm_col (a := 5000) (b := 100) x reduces_S5000x100_S5000 (.inl rfl) rfl shapeCasts_S5000_S5000x1
      broadcasts_S5000x1_S5000x100 0x2B8CBCCC#32 p q)

/-- The second normalising body's stored value at (p, q). -/
theorem pay_norm3 (x a : Vec Ideal S5000x100 .f32) (p : Fin 5000) (q : Fin 100) :
    k3_pay1 (F := Ideal) x a (ix2 p q)
      = a (ix2 p q) + Ideal.div (x (ix2 p q))
          (max (Ideal.sqrt (∑ k : Fin 100, x (ix2 p k) * x (ix2 p k))) (Ideal.ofBits .f32 0x2B8CBCCC#32))
          * Ideal.ofBits .f32 0x3EAAAAAB#32 := by
  unfold k3_pay1
  simp only [shapeCast_self]
  exact congrArg (fun z => a (ix2 p q) + Ideal.div (x (ix2 p q)) z * Ideal.ofBits .f32 0x3EAAAAAB#32)
    (norm_col (a := 5000) (b := 100) x reduces_S5000x100_S5000 (.inl rfl) rfl shapeCasts_S5000_S5000x1
      broadcasts_S5000x1_S5000x100 0x2B8CBCCC#32 p q)

end Cert.KernelIdeal.Hand

end
-- ==== Proof.KRegion0.lean ====
/-
  Kernel region 0 (a linear projection), from blocks to the whole array.

  The grid has ten points; point t stages rows 5000·t … 5000·t + 4999 of the left operand, the whole weight matrix, and
  writes back the same rows of the result.  Entry (p, q) of the block point t writes is the sum over k of the left
  operand's row 5000·t + p at column k times the weight at (k, q): the entry (5000·t + p, q) of the product of the two
  whole arrays.  The ten blocks tile the result array, so after the region the array is the product.
-/
import proofs.«163798_j63307817943427_1_alg».proof.Proof.Gen.KernelIdeal.Frame
import proofs.«163798_j63307817943427_1_alg».proof.Proof.KPayload
import proofs.«163798_j63307817943427_1_alg».proof.Proof.Layer
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the row windows sit at block (t, 0), the weight window at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000·t … of its array. -/
theorem iblk0_x (c : Dev nD) (t : Fin cfg0.N) (y : S5000x100.Idx) (k : S50000x100.Idx)
    (hk0 : (k 0).val = t.val * 5000 + (y 0).val) (hk1 : (k 1).val = (y 1).val) :
    (iblk0 V c 0 t : Vec Ideal S5000x100 .f32) y = (V c main_arg0 : S50000x100.Idx → Elt Ideal .f32) k := by
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t 0 * 5000 + 1 * (y 0).val = (k 0).val; rw [e0, hk0]; omega
  | ⟨1, _⟩ => show win0_0.index t 1 * 100 + 1 * (y 1).val = (k 1).val; rw [e1, hk1]; omega

/-- The weight block at every point is the whole weight array. -/
theorem iblk0_w (c : Dev nD) (t : Fin cfg0.N) (y : S100x100.Idx) :
    (iblk0 V c 1 t : Vec Ideal S100x100 .f32) y = (V c main_v23 : S100x100.Idx → Elt Ideal .f32) y := by
  obtain ⟨-, -, e2, e3, -, -⟩ := idx0 t
  unfold iblk0
  rw [View.read_apply]
  show V c main_v23 _ = V c main_v23 _
  congr 1
  funext a
  apply Fin.ext
  match a with
  | ⟨0, _⟩ => show win0_1.index t 0 * 100 + 1 * (y 0).val = (y 0).val; rw [e2]; omega
  | ⟨1, _⟩ => show win0_1.index t 1 * 100 + 1 * (y 1).val = (y 1).val; rw [e3]; omega

/-- An entry of the block point t writes is the product's entry at the block's place in the array. -/
theorem block_entry0 (c : Dev nD) (t : Fin cfg0.N) (j : S5000x100.Idx) :
    k0_pay1 (F := Ideal) (iblk0 V c 0 t) (iblk0 V c 1 t) j
      = Cert.Layer.lin (V c main_arg0) (V c main_v23) (((cfg0.win 2).blk t).view.emb j) := by
  obtain ⟨p, q, rfl⟩ : ∃ (p : Fin 5000) (q : Fin 100), j = ix2 p q := ⟨j 0, j 1, eq_ix2 j⟩
  obtain ⟨-, -, -, -, e4, e5⟩ := idx0 t
  have hN : t.val < 10 := lt_of_lt_of_eq t.isLt (N_0 : cfg0.N = 10)
  have hi0 : ((((cfg0.win 2).blk t).view.emb (ix2 p q) : S50000x100.Idx) 0).val = t.val * 5000 + p.val := by
    show win0_2.index t 0 * 5000 + 1 * p.val = _; rw [e4]; omega
  have hi1 : ((((cfg0.win 2).blk t).view.emb (ix2 p q) : S50000x100.Idx) 1).val = q.val := by
    show win0_2.index t 1 * 100 + 1 * q.val = _; rw [e5]; omega
  refine (pay_lin0 (iblk0 V c 0 t) (iblk0 V c 1 t) p q).trans ?_
  refine Eq.trans ?_ (Cert.Layer.lin_of_coords (V c main_arg0) (V c main_v23) _
    (⟨t.val * 5000 + p.val, by have := p.isLt; omega⟩ : Fin 50000) q hi0 hi1).symm
  unfold Cert.Layer.linAt
  refine Finset.sum_congr rfl fun k _ => ?_
  rw [iblk0_x V c t (ix2 p k) (ix2 (⟨t.val * 5000 + p.val, by have := p.isLt; omega⟩ : Fin 50000) k) rfl rfl,
    iblk0_w V c t (ix2 k q)]

/-- What point t writes back is block t of the product. -/
theorem flushed0 (c : Dev nD) (t : Fin cfg0.N) :
    (dat0 V c).flushed 2 t
      = ((cfg0.win 2).blk t).view.read (Elt Ideal) (Cert.Layer.lin (V c main_arg0) (V c main_v23)) := by
  show (cfg0.win 2).cut (grid0.coords t) ((dat0 V c).after 2 t) = _
  rw [after0_2]
  unfold out0_2
  rw [View.canon_unit_zero hz0]
  simp only [View.ld_unit_zero (S := S5000x100) hz0, View.ld_unit_zero (S := S100x100) hz0]
  funext j
  exact block_entry0 V c t j

/-- Every entry of the result array is in some point's block: row r is in block r / 5000. -/
theorem cover0 (i : S50000x100.Idx) :
    ∃ t : Fin cfg0.N, (cfg0.win 2).flush t = true ∧ i ∈ ((cfg0.win 2).blk t).view.set := by
  have hi0 : (i 0).val < 50000 := idx2_lt0 i
  have hi1 : (i 1).val < 100 := idx2_lt1 i
  have ht : (i 0).val / 5000 < cfg0.N := by rw [show cfg0.N = 10 from N_0]; omega
  obtain ⟨-, -, -, -, e4, e5⟩ := idx0 ⟨(i 0).val / 5000, ht⟩
  refine ⟨⟨(i 0).val / 5000, ht⟩, flush0_2 _, ?_⟩
  show i ∈ ((View.whole main_v24).slice (win0_2.rect ⟨(i 0).val / 5000, ht⟩)).set
  rw [View.set_slice_whole, Rect.mem_set_unit]
  intro a
  match a with
  | ⟨0, _⟩ =>
    show win0_2.index ⟨(i 0).val / 5000, ht⟩ 0 * 5000 ≤ (i 0).val
      ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 100 ≤ (i 1).val
      ∧ (i 1).val < win0_2.index ⟨(i 0).val / 5000, ht⟩ 1 * 100 + 100
    rw [e5]; omega

/-- After the region the result array is the product of the two operand arrays as the region found them. -/
theorem region0_array (c : Dev nD) :
    (dat0 V c).arrAt 2 cfg0.N = Cert.Layer.lin (V c main_arg0) (V c main_v23) :=
  (dat0 V c).arrAt_eq_of_cover 2 (Cert.Layer.lin (V c main_arg0) (V c main_v23))
    (fun t _ => flushed0 V c t) cover0

end Cert.KernelIdeal.Hand

end
-- ==== Proof.KRegion1.lean ====
/-
  Kernel region 1 (row normalisation added onto the running average), from blocks to the whole array.

  The grid has ten points; point t stages rows 5000·t … 5000·t + 4999 of both operands and writes back the same rows
  of the result.  The stored value of a row uses that row alone (its own entries and the sum of their squares), so
  entry (p, q) of the block point t writes is the entry (5000·t + p, q) of the whole-array function.  The ten blocks
  tile the result array.
-/
import proofs.«163798_j63307817943427_1_alg».proof.Proof.Gen.KernelIdeal.Frame
import proofs.«163798_j63307817943427_1_alg».proof.Proof.KPayload
import proofs.«163798_j63307817943427_1_alg».proof.Proof.Layer
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: every window sits at block (t, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The first operand's block at point t is rows 5000·t … of its array. -/
theorem iblk1_x (c : Dev nD) (t : Fin cfg1.N) (y : S5000x100.Idx) (k : S50000x100.Idx)
    (hk0 : (k 0).val = t.val * 5000 + (y 0).val) (hk1 : (k 1).val = (y 1).val) :
    (iblk1 V c 0 t : Vec Ideal S5000x100 .f32) y = (V c main_v37 : S50000x100.Idx → Elt Ideal .f32) k := by
  obtain ⟨e0, e1, -, -, -, -⟩ := idx1 t
  unfold iblk1
  rw [View.read_apply]
  show V c main_v37 _ = V c main_v37 _
  congr 1
  funext a
  apply Fin.ext
  match a with
  | ⟨0, _⟩ => show win1_0.index t 0 * 5000 + 1 * (y 0).val = (k 0).val; rw [e0, hk0]; omega
  | ⟨1, _⟩ => show win1_0.index t 1 * 100 + 1 * (y 1).val = (k 1).val; rw [e1, hk1]; omega

/-- The second operand's block at point t is the same rows of its array. -/
theorem iblk1_a (c : Dev nD) (t : Fin cfg1.N) (y : S5000x100.Idx) (k : S50000x100.Idx)
    (hk0 : (k 0).val = t.val * 5000 + (y 0).val) (hk1 : (k 1).val = (y 1).val) :
    (iblk1 V c 1 t : Vec Ideal S5000x100 .f32) y = (V c main_v21 : S50000x100.Idx → Elt Ideal .f32) k := by
  obtain ⟨-, -, e2, e3, -, -⟩ := idx1 t
  unfold iblk1
  rw [View.read_apply]
  show V c main_v21 _ = V c main_v21 _
  congr 1
  funext a
  apply Fin.ext
  match a with
  | ⟨0, _⟩ => show win1_1.index t 0 * 5000 + 1 * (y 0).val = (k 0).val; rw [e2, hk0]; omega
  | ⟨1, _⟩ => show win1_1.index t 1 * 100 + 1 * (y 1).val = (k 1).val; rw [e3, hk1]; omega

/-- An entry of the block point t writes is the whole-array function's entry at the block's place in the array. -/
theorem block_entry1 (c : Dev nD) (t : Fin cfg1.N) (j : S5000x100.Idx) :
    k1_pay1 (F := Ideal) (iblk1 V c 0 t) (iblk1 V c 1 t) j
      = Cert.Layer.normAvg (V c main_v37) (V c main_v21) (((cfg1.win 2).blk t).view.emb j) := by
  obtain ⟨p, q, rfl⟩ : ∃ (p : Fin 5000) (q : Fin 100), j = ix2 p q := ⟨j 0, j 1, eq_ix2 j⟩
  obtain ⟨-, -, -, -, e4, e5⟩ := idx1 t
  have hN : t.val < 10 := lt_of_lt_of_eq t.isLt (N_1 : cfg1.N = 10)
  have hi0 : ((((cfg1.win 2).blk t).view.emb (ix2 p q) : S50000x100.Idx) 0).val = t.val * 5000 + p.val := by
    show win1_2.index t 0 * 5000 + 1 * p.val = _; rw [e4]; omega
  have hi1 : ((((cfg1.win 2).blk t).view.emb (ix2 p q) : S50000x100.Idx) 1).val = q.val := by
    show win1_2.index t 1 * 100 + 1 * q.val = _; rw [e5]; omega
  refine (pay_norm1 (iblk1 V c 0 t) (iblk1 V c 1 t) p q).trans ?_
  refine Eq.trans ?_ (Cert.Layer.normAvg_of_coords (V c main_v37) (V c main_v21) _
    (⟨t.val * 5000 + p.val, by have := p.isLt; omega⟩ : Fin 50000) q hi0 hi1).symm
  unfold Cert.Layer.normAvgAt Cert.Layer.rowSq
  have hx : ∀ k : Fin 100, (iblk1 V c 0 t : Vec Ideal S5000x100 .f32) (ix2 p k)
      = (V c main_v37 : S50000x100.Idx → Elt Ideal .f32) (ix2 (⟨t.val * 5000 + p.val, by have := p.isLt; omega⟩ : Fin 50000) k) :=
    fun k => iblk1_x V c t (ix2 p k) (ix2 (⟨t.val * 5000 + p.val, by have := p.isLt; omega⟩ : Fin 50000) k) rfl rfl
  rw [iblk1_a V c t (ix2 p q) (ix2 (⟨t.val * 5000 + p.val, by have := p.isLt; omega⟩ : Fin 50000) q) rfl rfl, hx q,
    Finset.sum_congr rfl fun k _ => by rw [hx k]]

/-- What point t writes back is block t of the whole-array function. -/
theorem flushed1 (c : Dev nD) (t : Fin cfg1.N) :
    (dat1 V c).flushed 2 t
      = ((cfg1.win 2).blk t).view.read (Elt Ideal) (Cert.Layer.normAvg (V c main_v37) (V c main_v21)) := by
  show (cfg1.win 2).cut (grid1.coords t) ((dat1 V c).after 2 t) = _
  rw [after1_2]
  unfold out1_2
  rw [View.canon_unit_zero hz1]
  simp only [View.ld_unit_zero (S := S5000x100) hz1]
  funext j
  exact block_entry1 V c t j

/-- Every entry of the result array is in some point's block: row r is in block r / 5000. -/
theorem cover1 (i : S50000x100.Idx) :
    ∃ t : Fin cfg1.N, (cfg1.win 2).flush t = true ∧ i ∈ ((cfg1.win 2).blk t).view.set := by
  have hi0 : (i 0).val < 50000 := idx2_lt0 i
  have hi1 : (i 1).val < 100 := idx2_lt1 i
  have ht : (i 0).val / 5000 < cfg1.N := by rw [show cfg1.N = 10 from N_1]; omega
  obtain ⟨-, -, -, -, e4, e5⟩ := idx1 ⟨(i 0).val / 5000, ht⟩
  refine ⟨⟨(i 0).val / 5000, ht⟩, flush1_2 _, ?_⟩
  show i ∈ ((View.whole main_v38).slice (win1_2.rect ⟨(i 0).val / 5000, ht⟩)).set
  rw [View.set_slice_whole, Rect.mem_set_unit]
  intro a
  match a with
  | ⟨0, _⟩ =>
    show win1_2.index ⟨(i 0).val / 5000, ht⟩ 0 * 5000 ≤ (i 0).val
      ∧ (i 0).val < win1_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ 1 * 100 ≤ (i 1).val
      ∧ (i 1).val < win1_2.index ⟨(i 0).val / 5000, ht⟩ 1 * 100 + 100
    rw [e5]; omega

/-- After the region the result array is the whole-array function of the two operand arrays as the region found them. -/
theorem region1_array (c : Dev nD) :
    (dat1 V c).arrAt 2 cfg1.N = Cert.Layer.normAvg (V c main_v37) (V c main_v21) :=
  (dat1 V c).arrAt_eq_of_cover 2 (Cert.Layer.normAvg (V c main_v37) (V c main_v21))
    (fun t _ => flushed1 V c t) cover1

end Cert.KernelIdeal.Hand

end
-- ==== Proof.KRegion2.lean ====
/-
  Kernel region 2 (a linear projection), from blocks to the whole array.

  The grid has ten points; point t stages rows 5000·t … 5000·t + 4999 of the left operand, the whole weight matrix, and
  writes back the same rows of the result.  Entry (p, q) of the block point t writes is the sum over k of the left
  operand's row 5000·t + p at column k times the weight at (k, q): the entry (5000·t + p, q) of the product of the two
  whole arrays.  The ten blocks tile the result array, so after the region the array is the product.
-/
import proofs.«163798_j63307817943427_1_alg».proof.Proof.Gen.KernelIdeal.Frame
import proofs.«163798_j63307817943427_1_alg».proof.Proof.KPayload
import proofs.«163798_j63307817943427_1_alg».proof.Proof.Layer
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row windows sit at block (t, 0), the weight window at (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 5000·t … of its array. -/
theorem iblk2_x (c : Dev nD) (t : Fin cfg2.N) (y : S5000x100.Idx) (k : S50000x100.Idx)
    (hk0 : (k 0).val = t.val * 5000 + (y 0).val) (hk1 : (k 1).val = (y 1).val) :
    (iblk2 V c 0 t : Vec Ideal S5000x100 .f32) y = (V c main_v37 : S50000x100.Idx → Elt Ideal .f32) k := by
  obtain ⟨e0, e1, -, -, -, -⟩ := idx2 t
  unfold iblk2
  rw [View.read_apply]
  show V c main_v37 _ = V c main_v37 _
  congr 1
  funext a
  apply Fin.ext
  match a with
  | ⟨0, _⟩ => show win2_0.index t 0 * 5000 + 1 * (y 0).val = (k 0).val; rw [e0, hk0]; omega
  | ⟨1, _⟩ => show win2_0.index t 1 * 100 + 1 * (y 1).val = (k 1).val; rw [e1, hk1]; omega

/-- The weight block at every point is the whole weight array. -/
theorem iblk2_w (c : Dev nD) (t : Fin cfg2.N) (y : S100x100.Idx) :
    (iblk2 V c 1 t : Vec Ideal S100x100 .f32) y = (V c main_v40 : S100x100.Idx → Elt Ideal .f32) y := by
  obtain ⟨-, -, e2, e3, -, -⟩ := idx2 t
  unfold iblk2
  rw [View.read_apply]
  show V c main_v40 _ = V c main_v40 _
  congr 1
  funext a
  apply Fin.ext
  match a with
  | ⟨0, _⟩ => show win2_1.index t 0 * 100 + 1 * (y 0).val = (y 0).val; rw [e2]; omega
  | ⟨1, _⟩ => show win2_1.index t 1 * 100 + 1 * (y 1).val = (y 1).val; rw [e3]; omega

/-- An entry of the block point t writes is the product's entry at the block's place in the array. -/
theorem block_entry2 (c : Dev nD) (t : Fin cfg2.N) (j : S5000x100.Idx) :
    k2_pay1 (F := Ideal) (iblk2 V c 0 t) (iblk2 V c 1 t) j
      = Cert.Layer.lin (V c main_v37) (V c main_v40) (((cfg2.win 2).blk t).view.emb j) := by
  obtain ⟨p, q, rfl⟩ : ∃ (p : Fin 5000) (q : Fin 100), j = ix2 p q := ⟨j 0, j 1, eq_ix2 j⟩
  obtain ⟨-, -, -, -, e4, e5⟩ := idx2 t
  have hN : t.val < 10 := lt_of_lt_of_eq t.isLt (N_2 : cfg2.N = 10)
  have hi0 : ((((cfg2.win 2).blk t).view.emb (ix2 p q) : S50000x100.Idx) 0).val = t.val * 5000 + p.val := by
    show win2_2.index t 0 * 5000 + 1 * p.val = _; rw [e4]; omega
  have hi1 : ((((cfg2.win 2).blk t).view.emb (ix2 p q) : S50000x100.Idx) 1).val = q.val := by
    show win2_2.index t 1 * 100 + 1 * q.val = _; rw [e5]; omega
  refine (pay_lin2 (iblk2 V c 0 t) (iblk2 V c 1 t) p q).trans ?_
  refine Eq.trans ?_ (Cert.Layer.lin_of_coords (V c main_v37) (V c main_v40) _
    (⟨t.val * 5000 + p.val, by have := p.isLt; omega⟩ : Fin 50000) q hi0 hi1).symm
  unfold Cert.Layer.linAt
  refine Finset.sum_congr rfl fun k _ => ?_
  rw [iblk2_x V c t (ix2 p k) (ix2 (⟨t.val * 5000 + p.val, by have := p.isLt; omega⟩ : Fin 50000) k) rfl rfl,
    iblk2_w V c t (ix2 k q)]

/-- What point t writes back is block t of the product. -/
theorem flushed2 (c : Dev nD) (t : Fin cfg2.N) :
    (dat2 V c).flushed 2 t
      = ((cfg2.win 2).blk t).view.read (Elt Ideal) (Cert.Layer.lin (V c main_v37) (V c main_v40)) := by
  show (cfg2.win 2).cut (grid2.coords t) ((dat2 V c).after 2 t) = _
  rw [after2_2]
  unfold out2_2
  rw [View.canon_unit_zero hz2]
  simp only [View.ld_unit_zero (S := S5000x100) hz2, View.ld_unit_zero (S := S100x100) hz2]
  funext j
  exact block_entry2 V c t j

/-- Every entry of the result array is in some point's block: row r is in block r / 5000. -/
theorem cover2 (i : S50000x100.Idx) :
    ∃ t : Fin cfg2.N, (cfg2.win 2).flush t = true ∧ i ∈ ((cfg2.win 2).blk t).view.set := by
  have hi0 : (i 0).val < 50000 := idx2_lt0 i
  have hi1 : (i 1).val < 100 := idx2_lt1 i
  have ht : (i 0).val / 5000 < cfg2.N := by rw [show cfg2.N = 10 from N_2]; omega
  obtain ⟨-, -, -, -, e4, e5⟩ := idx2 ⟨(i 0).val / 5000, ht⟩
  refine ⟨⟨(i 0).val / 5000, ht⟩, flush2_2 _, ?_⟩
  show i ∈ ((View.whole main_v41).slice (win2_2.rect ⟨(i 0).val / 5000, ht⟩)).set
  rw [View.set_slice_whole, Rect.mem_set_unit]
  intro a
  match a with
  | ⟨0, _⟩ =>
    show win2_2.index ⟨(i 0).val / 5000, ht⟩ 0 * 5000 ≤ (i 0).val
      ∧ (i 0).val < win2_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ 1 * 100 ≤ (i 1).val
      ∧ (i 1).val < win2_2.index ⟨(i 0).val / 5000, ht⟩ 1 * 100 + 100
    rw [e5]; omega

/-- After the region the result array is the product of the two operand arrays as the region found them. -/
theorem region2_array (c : Dev nD) :
    (dat2 V c).arrAt 2 cfg2.N = Cert.Layer.lin (V c main_v37) (V c main_v40) :=
  (dat2 V c).arrAt_eq_of_cover 2 (Cert.Layer.lin (V c main_v37) (V c main_v40))
    (fun t _ => flushed2 V c t) cover2

end Cert.KernelIdeal.Hand

end
-- ==== Proof.KRegion3.lean ====
/-
  Kernel region 3 (row normalisation added onto the running average), from blocks to the whole array.

  The grid has ten points; point t stages rows 5000·t … 5000·t + 4999 of both operands and writes back the same rows
  of the result.  The stored value of a row uses that row alone (its own entries and the sum of their squares), so
  entry (p, q) of the block point t writes is the entry (5000·t + p, q) of the whole-array function.  The ten blocks
  tile the result array.
-/
import proofs.«163798_j63307817943427_1_alg».proof.Proof.Gen.KernelIdeal.Frame
import proofs.«163798_j63307817943427_1_alg».proof.Proof.KPayload
import proofs.«163798_j63307817943427_1_alg».proof.Proof.Layer
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: every window sits at block (t, 0). -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The first operand's block at point t is rows 5000·t … of its array. -/
theorem iblk3_x (c : Dev nD) (t : Fin cfg3.N) (y : S5000x100.Idx) (k : S50000x100.Idx)
    (hk0 : (k 0).val = t.val * 5000 + (y 0).val) (hk1 : (k 1).val = (y 1).val) :
    (iblk3 V c 0 t : Vec Ideal S5000x100 .f32) y = (V c main_v54 : S50000x100.Idx → Elt Ideal .f32) k := by
  obtain ⟨e0, e1, -, -, -, -⟩ := idx3 t
  unfold iblk3
  rw [View.read_apply]
  show V c main_v54 _ = V c main_v54 _
  congr 1
  funext a
  apply Fin.ext
  match a with
  | ⟨0, _⟩ => show win3_0.index t 0 * 5000 + 1 * (y 0).val = (k 0).val; rw [e0, hk0]; omega
  | ⟨1, _⟩ => show win3_0.index t 1 * 100 + 1 * (y 1).val = (k 1).val; rw [e1, hk1]; omega

/-- The second operand's block at point t is the same rows of its array. -/
theorem iblk3_a (c : Dev nD) (t : Fin cfg3.N) (y : S5000x100.Idx) (k : S50000x100.Idx)
    (hk0 : (k 0).val = t.val * 5000 + (y 0).val) (hk1 : (k 1).val = (y 1).val) :
    (iblk3 V c 1 t : Vec Ideal S5000x100 .f32) y = (V c main_v38 : S50000x100.Idx → Elt Ideal .f32) k := by
  obtain ⟨-, -, e2, e3, -, -⟩ := idx3 t
  unfold iblk3
  rw [View.read_apply]
  show V c main_v38 _ = V c main_v38 _
  congr 1
  funext a
  apply Fin.ext
  match a with
  | ⟨0, _⟩ => show win3_1.index t 0 * 5000 + 1 * (y 0).val = (k 0).val; rw [e2, hk0]; omega
  | ⟨1, _⟩ => show win3_1.index t 1 * 100 + 1 * (y 1).val = (k 1).val; rw [e3, hk1]; omega

/-- An entry of the block point t writes is the whole-array function's entry at the block's place in the array. -/
theorem block_entry3 (c : Dev nD) (t : Fin cfg3.N) (j : S5000x100.Idx) :
    k3_pay1 (F := Ideal) (iblk3 V c 0 t) (iblk3 V c 1 t) j
      = Cert.Layer.normAvg (V c main_v54) (V c main_v38) (((cfg3.win 2).blk t).view.emb j) := by
  obtain ⟨p, q, rfl⟩ : ∃ (p : Fin 5000) (q : Fin 100), j = ix2 p q := ⟨j 0, j 1, eq_ix2 j⟩
  obtain ⟨-, -, -, -, e4, e5⟩ := idx3 t
  have hN : t.val < 10 := lt_of_lt_of_eq t.isLt (N_3 : cfg3.N = 10)
  have hi0 : ((((cfg3.win 2).blk t).view.emb (ix2 p q) : S50000x100.Idx) 0).val = t.val * 5000 + p.val := by
    show win3_2.index t 0 * 5000 + 1 * p.val = _; rw [e4]; omega
  have hi1 : ((((cfg3.win 2).blk t).view.emb (ix2 p q) : S50000x100.Idx) 1).val = q.val := by
    show win3_2.index t 1 * 100 + 1 * q.val = _; rw [e5]; omega
  refine (pay_norm3 (iblk3 V c 0 t) (iblk3 V c 1 t) p q).trans ?_
  refine Eq.trans ?_ (Cert.Layer.normAvg_of_coords (V c main_v54) (V c main_v38) _
    (⟨t.val * 5000 + p.val, by have := p.isLt; omega⟩ : Fin 50000) q hi0 hi1).symm
  unfold Cert.Layer.normAvgAt Cert.Layer.rowSq
  have hx : ∀ k : Fin 100, (iblk3 V c 0 t : Vec Ideal S5000x100 .f32) (ix2 p k)
      = (V c main_v54 : S50000x100.Idx → Elt Ideal .f32) (ix2 (⟨t.val * 5000 + p.val, by have := p.isLt; omega⟩ : Fin 50000) k) :=
    fun k => iblk3_x V c t (ix2 p k) (ix2 (⟨t.val * 5000 + p.val, by have := p.isLt; omega⟩ : Fin 50000) k) rfl rfl
  rw [iblk3_a V c t (ix2 p q) (ix2 (⟨t.val * 5000 + p.val, by have := p.isLt; omega⟩ : Fin 50000) q) rfl rfl, hx q,
    Finset.sum_congr rfl fun k _ => by rw [hx k]]

/-- What point t writes back is block t of the whole-array function. -/
theorem flushed3 (c : Dev nD) (t : Fin cfg3.N) :
    (dat3 V c).flushed 2 t
      = ((cfg3.win 2).blk t).view.read (Elt Ideal) (Cert.Layer.normAvg (V c main_v54) (V c main_v38)) := by
  show (cfg3.win 2).cut (grid3.coords t) ((dat3 V c).after 2 t) = _
  rw [after3_2]
  unfold out3_2
  rw [View.canon_unit_zero hz3]
  simp only [View.ld_unit_zero (S := S5000x100) hz3]
  funext j
  exact block_entry3 V c t j

/-- Every entry of the result array is in some point's block: row r is in block r / 5000. -/
theorem cover3 (i : S50000x100.Idx) :
    ∃ t : Fin cfg3.N, (cfg3.win 2).flush t = true ∧ i ∈ ((cfg3.win 2).blk t).view.set := by
  have hi0 : (i 0).val < 50000 := idx2_lt0 i
  have hi1 : (i 1).val < 100 := idx2_lt1 i
  have ht : (i 0).val / 5000 < cfg3.N := by rw [show cfg3.N = 10 from N_3]; omega
  obtain ⟨-, -, -, -, e4, e5⟩ := idx3 ⟨(i 0).val / 5000, ht⟩
  refine ⟨⟨(i 0).val / 5000, ht⟩, flush3_2 _, ?_⟩
  show i ∈ ((View.whole main_v55).slice (win3_2.rect ⟨(i 0).val / 5000, ht⟩)).set
  rw [View.set_slice_whole, Rect.mem_set_unit]
  intro a
  match a with
  | ⟨0, _⟩ =>
    show win3_2.index ⟨(i 0).val / 5000, ht⟩ 0 * 5000 ≤ (i 0).val
      ∧ (i 0).val < win3_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ 1 * 100 ≤ (i 1).val
      ∧ (i 1).val < win3_2.index ⟨(i 0).val / 5000, ht⟩ 1 * 100 + 100
    rw [e5]; omega

/-- After the region the result array is the whole-array function of the two operand arrays as the region found them. -/
theorem region3_array (c : Dev nD) :
    (dat3 V c).arrAt 2 cfg3.N = Cert.Layer.normAvg (V c main_v54) (V c main_v38) :=
  (dat3 V c).arrAt_eq_of_cover 2 (Cert.Layer.normAvg (V c main_v54) (V c main_v38))
    (fun t _ => flushed3 V c t) cover3

end Cert.KernelIdeal.Hand

end
-- ==== Proof.LibConcatenateCongr.lean ====
/-
  A concatenation of two pieces, rewritten piece by piece.

  `concatenate t a [⟨s₁, x⟩, ⟨s₂, y⟩] h` joins `x` and `y` along axis `a`; its side condition `h` speaks of the pieces'
  SHAPES only (`Shape.Concatenates [s₁, s₂] t a`), so replacing `x` and `y` by equal arrays leaves it in place.  Stated in
  the form of a congruence rule (hypotheses `x = x'`, `y = y'`): tagged `congr`, it lets a rewriting pass reach the two
  pieces, which sit inside a list of shape-indexed pairs that no automatically derived congruence enters.
-/
import Idealize.ShloMosaic.PureOps.ShapeOps

namespace Cert.Lib

open Idealize.ShloMosaic

/-- Two-piece concatenations of equal pieces are equal; the side condition, which depends on the shapes alone, is the
    same on both sides.  Use as `attribute [local congr] Cert.Lib.concatenate_pair_congr`. -/
theorem concatenate_pair_congr {α : Type} (t : Shape) (a : Fin t.rank) (s₁ s₂ : Shape) (x : s₁.Idx → α) (y : s₂.Idx → α)
    {x' : s₁.Idx → α} {y' : s₂.Idx → α} (h : Shape.Concatenates [s₁, s₂] t a) (hx : x = x') (hy : y = y') :
    concatenate t a [⟨s₁, x⟩, ⟨s₂, y⟩] h = concatenate t a [⟨s₁, x'⟩, ⟨s₂, y'⟩] h := by
  subst hx; subst hy; rfl

end Cert.Lib
-- ==== Proof.KHost.lean ====
/-
  What each kernel region of the idealized kernel program finds in the arrays it reads.

  Between the regions the program runs host operations; a buffer a stretch of them does not write, and a buffer
  that is no array of a region, keeps its contents across it.  Read back to the launch memory: the first linear
  region finds the features and layer 0's matrix; each aggregation is applied to the projection the region before it
  left, over the edge list with self loops and the per-edge weights, computed once from the arguments; each
  normalising region finds the aggregation and the running average so far; the second linear region finds the first
  aggregation and layer 1's matrix.  The last region's result array is the program's result.
-/
import proofs.«163798_j63307817943427_1_alg».proof.Proof.Gen.KernelIdeal.Frame
import proofs.«163798_j63307817943427_1_alg».proof.Proof.Sparse
import proofs.«163798_j63307817943427_1_alg».proof.Proof.Layer
import proofs.«163798_j63307817943427_1_alg».proof.Proof.KRegion0
import proofs.«163798_j63307817943427_1_alg».proof.Proof.KRegion1
import proofs.«163798_j63307817943427_1_alg».proof.Proof.KRegion2
import proofs.«163798_j63307817943427_1_alg».proof.Proof.KRegion3
import Idealize.ShloMosaic.Lib.StableHlo.Run
import proofs.«163798_j63307817943427_1_alg».proof.Proof.LibConcatenateCongr

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

-- a rewriting pass reaches the two pieces of a concatenation through this rule
attribute [local congr] Cert.Lib.concatenate_pair_congr

/-- A buffer none of a stretch's operations writes keeps its contents across the stretch. -/
macro "host_keeps" : tactic =>
  `(tactic| exact StableHlo.after_of_forall_not_mem _ _ (List.forall_iff_forall_mem.mp (by
      simp only [hostOps0, hostOps0_1, hostOps0_2, hostOps1, hostOps2, hostOps3, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The host stretches, each over any contents it is entered with -/

/-- The stretch between the first linear region and the first normalising region computes the aggregation. -/
theorem stretch1_agg (V : Valuation τ sig (Elt Ideal)) :
    StableHlo.after hostOps1 V (Proc.devRef .tc main_v37)
      = aggregate (V (Proc.devRef .tc main_v24)) (V (Proc.devRef .tc main_v1)) (V (Proc.devRef .tc main_v2))
          (V (Proc.devRef .tc main_v18)) := by
  after_results_simp
  rfl

/-- The stretch before the last region computes the aggregation of the second projection. -/
theorem stretch3_agg (V : Valuation τ sig (Elt Ideal)) :
    StableHlo.after hostOps3 V (Proc.devRef .tc main_v54)
      = aggregate (V (Proc.devRef .tc main_v41)) (V (Proc.devRef .tc main_v1)) (V (Proc.devRef .tc main_v2))
          (V (Proc.devRef .tc main_v18)) := by
  after_results_simp
  rfl

/-- The stretch before the second linear region cuts layer 1's matrix out of the exchanged stack. -/
theorem stretch2_mat (V : Valuation τ sig (Elt Ideal)) :
    StableHlo.after hostOps2 V (Proc.devRef .tc main_v40)
      = shapeCast S100x100 (extractStridedSlice S1x100x100 ![1, 0, 0] (V (Proc.devRef .tc main_v19)) slices_S2x100x100_S1x100x100_1_0_0)
          shapeCasts_S1x100x100_S100x100 := by
  after_results
  rfl

/-- The node weights, from the mask, the reciprocal degrees and the fallback word. -/
theorem stretch01_nodeWeight (V : Valuation τ sig (Elt Ideal)) :
    StableHlo.after hostOps0_1 V (Proc.devRef .tc main_v11)
      = nodeWeight (V (Proc.devRef .tc main_v8)) (V (Proc.devRef .tc main_v10)) (V (Proc.devRef .tc main_cst_3)) := by
  after_results
  rfl

/-- The edge weights, from the node weights and the destination list. -/
theorem stretch02_edgeWeight (V : Valuation τ sig (Elt Ideal)) :
    StableHlo.after hostOps0_2 V (Proc.devRef .tc main_v18)
      = gatherWeight (V (Proc.devRef .tc main_v11)) (V (Proc.devRef .tc main_v2)) := by
  after_results_simp
  rfl

/-- The exchanged stack, layer 0's matrix and the running average's first term. -/
theorem stretch02_swapped (V : Valuation τ sig (Elt Ideal)) :
    StableHlo.after hostOps0_2 V (Proc.devRef .tc main_v19) = swapped (V (Proc.devRef .tc main_arg1)) := by
  after_results_simp
  rfl
theorem stretch02_mat (V : Valuation τ sig (Elt Ideal)) :
    StableHlo.after hostOps0_2 V (Proc.devRef .tc main_v23) = layerMat0 (V (Proc.devRef .tc main_arg1)) := by
  after_results_simp
  rfl
theorem stretch02_avg (V : Valuation τ sig (Elt Ideal)) :
    StableHlo.after hostOps0_2 V (Proc.devRef .tc main_v21) = avgStart (V (Proc.devRef .tc main_arg0)) := by
  after_results_simp
  rfl

/-- The first stretch: the two lists with self loops, the mask, the reciprocal degrees, the fallback word. -/
theorem stretch0_src (V : Valuation τ sig (Elt Ideal)) :
    StableHlo.after hostOps0 V (Proc.devRef .tc main_v1) = withLoops (V (Proc.devRef .tc main_arg2)) := by
  after_results_simp
  rfl
theorem stretch0_dst (V : Valuation τ sig (Elt Ideal)) :
    StableHlo.after hostOps0 V (Proc.devRef .tc main_v2) = withLoops (V (Proc.devRef .tc main_arg3)) := by
  after_results_simp
  rfl
theorem stretch0_mask (V : Valuation τ sig (Elt Ideal)) :
    StableHlo.after hostOps0 V (Proc.devRef .tc main_v8) = hasEdge (withLoops (V (Proc.devRef .tc main_arg3))) := by
  after_results_simp
  rfl
theorem stretch0_recip (V : Valuation τ sig (Elt Ideal)) :
    StableHlo.after hostOps0 V (Proc.devRef .tc main_v10) = recipDegree (withLoops (V (Proc.devRef .tc main_arg3))) := by
  after_results_simp
  rfl
theorem stretch0_zero (V : Valuation τ sig (Elt Ideal)) :
    StableHlo.after hostOps0 V (Proc.devRef .tc main_cst_3) = constant (F := Ideal) S_ .f32 0x00000000#32 := by
  after_results_simp

/-! ## Before the first region -/

/-- The source list with self loops. -/
theorem src_at3 (c : Dev nD) :
    W3 m ρ c (Proc.devRef .tc main_v1) = withLoops (m ((c.tc : Thread nD τ).loc main_arg2)) := by
  have e2 : W3 m ρ c (Proc.devRef .tc main_v1) = W2 m ρ c (Proc.devRef .tc main_v1) := by host_keeps
  have e1 : W2 m ρ c (Proc.devRef .tc main_v1) = W1 m ρ c (Proc.devRef .tc main_v1) := by host_keeps
  rw [e2, e1]
  exact stretch0_src (W0 m ρ c)

/-- The destination list with self loops, after two stretches and after three. -/
theorem dst_at2 (c : Dev nD) :
    W2 m ρ c (Proc.devRef .tc main_v2) = withLoops (m ((c.tc : Thread nD τ).loc main_arg3)) := by
  have e1 : W2 m ρ c (Proc.devRef .tc main_v2) = W1 m ρ c (Proc.devRef .tc main_v2) := by host_keeps
  rw [e1]
  exact stretch0_dst (W0 m ρ c)
theorem dst_at3 (c : Dev nD) :
    W3 m ρ c (Proc.devRef .tc main_v2) = withLoops (m ((c.tc : Thread nD τ).loc main_arg3)) := by
  have e2 : W3 m ρ c (Proc.devRef .tc main_v2) = W2 m ρ c (Proc.devRef .tc main_v2) := by host_keeps
  rw [e2, dst_at2]

/-- The per-edge weights. -/
theorem wgt_at3 (c : Dev nD) :
    W3 m ρ c (Proc.devRef .tc main_v18) = edgeWeight (withLoops (m ((c.tc : Thread nD τ).loc main_arg3))) := by
  refine (stretch02_edgeWeight (W2 m ρ c)).trans ?_
  rw [dst_at2]
  refine congrArg (fun nw => gatherWeight nw _) ?_
  refine (stretch01_nodeWeight (W1 m ρ c)).trans ?_
  show nodeWeight (StableHlo.after hostOps0 (W0 m ρ c) (Proc.devRef .tc main_v8))
    (StableHlo.after hostOps0 (W0 m ρ c) (Proc.devRef .tc main_v10))
    (StableHlo.after hostOps0 (W0 m ρ c) (Proc.devRef .tc main_cst_3)) = _
  rw [stretch0_mask, stretch0_recip, stretch0_zero]

/-- The features, as launched. -/
theorem feat_at3 (c : Dev nD) :
    W3 m ρ c (Proc.devRef .tc main_arg0) = m ((c.tc : Thread nD τ).loc main_arg0) := by
  have e2 : W3 m ρ c (Proc.devRef .tc main_arg0) = W2 m ρ c (Proc.devRef .tc main_arg0) := by host_keeps
  have e1 : W2 m ρ c (Proc.devRef .tc main_arg0) = W1 m ρ c (Proc.devRef .tc main_arg0) := by host_keeps
  have e0 : W1 m ρ c (Proc.devRef .tc main_arg0) = W0 m ρ c (Proc.devRef .tc main_arg0) := by host_keeps
  rw [e2, e1, e0]

/-- The stacked weights, as launched, after the first two stretches. -/
theorem wts_at2 (c : Dev nD) :
    W2 m ρ c (Proc.devRef .tc main_arg1) = m ((c.tc : Thread nD τ).loc main_arg1) := by
  have e1 : W2 m ρ c (Proc.devRef .tc main_arg1) = W1 m ρ c (Proc.devRef .tc main_arg1) := by host_keeps
  have e0 : W1 m ρ c (Proc.devRef .tc main_arg1) = W0 m ρ c (Proc.devRef .tc main_arg1) := by host_keeps
  rw [e1, e0]

/-- The features after the first two stretches. -/
theorem feat_at2 (c : Dev nD) :
    W2 m ρ c (Proc.devRef .tc main_arg0) = m ((c.tc : Thread nD τ).loc main_arg0) := by
  have e1 : W2 m ρ c (Proc.devRef .tc main_arg0) = W1 m ρ c (Proc.devRef .tc main_arg0) := by host_keeps
  have e0 : W1 m ρ c (Proc.devRef .tc main_arg0) = W0 m ρ c (Proc.devRef .tc main_arg0) := by host_keeps
  rw [e1, e0]

/-- The stacked weights with their last two axes exchanged. -/
theorem swapped_at3 (c : Dev nD) :
    W3 m ρ c (Proc.devRef .tc main_v19) = swapped (m ((c.tc : Thread nD τ).loc main_arg1)) := by
  refine (stretch02_swapped (W2 m ρ c)).trans ?_
  rw [wts_at2]

/-- Layer 0's matrix. -/
theorem mat0_at3 (c : Dev nD) :
    W3 m ρ c (Proc.devRef .tc main_v23) = layerMat0 (m ((c.tc : Thread nD τ).loc main_arg1)) := by
  refine (stretch02_mat (W2 m ρ c)).trans ?_
  rw [wts_at2]

/-- The running average before the first layer. -/
theorem avg_at3 (c : Dev nD) :
    W3 m ρ c (Proc.devRef .tc main_v21) = avgStart (m ((c.tc : Thread nD τ).loc main_arg0)) := by
  refine (stretch02_avg (W2 m ρ c)).trans ?_
  rw [feat_at2]

/-! ## Across the first linear region and the first aggregation -/

/-- The first projection. -/
theorem proj_at4 (c : Dev nD) :
    W4 m ρ c (Proc.devRef .tc main_v24)
      = Cert.Layer.lin (m ((c.tc : Thread nD τ).loc main_arg0)) (layerMat0 (m ((c.tc : Thread nD τ).loc main_arg1))) := by
  refine (W4_arr m ρ c 2).trans ((region0_array (V3 m ρ) c).trans ?_)
  show Cert.Layer.lin (W3 m ρ c (Proc.devRef .tc main_arg0)) (W3 m ρ c (Proc.devRef .tc main_v23)) = _
  rw [feat_at3, mat0_at3]

theorem src_at4 (c : Dev nD) : W4 m ρ c (Proc.devRef .tc main_v1) = withLoops (m ((c.tc : Thread nD τ).loc main_arg2)) :=
  (W4_of_ne m ρ c main_v1 (by decide)).trans (src_at3 m ρ c)
theorem dst_at4 (c : Dev nD) : W4 m ρ c (Proc.devRef .tc main_v2) = withLoops (m ((c.tc : Thread nD τ).loc main_arg3)) :=
  (W4_of_ne m ρ c main_v2 (by decide)).trans (dst_at3 m ρ c)
theorem wgt_at4 (c : Dev nD) :
    W4 m ρ c (Proc.devRef .tc main_v18) = edgeWeight (withLoops (m ((c.tc : Thread nD τ).loc main_arg3))) :=
  (W4_of_ne m ρ c main_v18 (by decide)).trans (wgt_at3 m ρ c)

/-- The aggregation a stretch computes from the projection before it. -/
theorem agg_at5 (c : Dev nD) :
    W5 m ρ c (Proc.devRef .tc main_v37)
      = aggregate (W4 m ρ c (Proc.devRef .tc main_v24)) (W4 m ρ c (Proc.devRef .tc main_v1))
          (W4 m ρ c (Proc.devRef .tc main_v2)) (W4 m ρ c (Proc.devRef .tc main_v18)) := by
  exact stretch1_agg (W4 m ρ c)

theorem avg_at5 (c : Dev nD) :
    W5 m ρ c (Proc.devRef .tc main_v21) = avgStart (m ((c.tc : Thread nD τ).loc main_arg0)) := by
  have e : W5 m ρ c (Proc.devRef .tc main_v21) = W4 m ρ c (Proc.devRef .tc main_v21) := by host_keeps
  rw [e, W4_of_ne m ρ c main_v21 (by decide), avg_at3]

theorem src_at6 (c : Dev nD) : W6 m ρ c (Proc.devRef .tc main_v1) = withLoops (m ((c.tc : Thread nD τ).loc main_arg2)) := by
  have e : W5 m ρ c (Proc.devRef .tc main_v1) = W4 m ρ c (Proc.devRef .tc main_v1) := by host_keeps
  rw [W6_of_ne m ρ c main_v1 (by decide), e, src_at4]
theorem dst_at6 (c : Dev nD) : W6 m ρ c (Proc.devRef .tc main_v2) = withLoops (m ((c.tc : Thread nD τ).loc main_arg3)) := by
  have e : W5 m ρ c (Proc.devRef .tc main_v2) = W4 m ρ c (Proc.devRef .tc main_v2) := by host_keeps
  rw [W6_of_ne m ρ c main_v2 (by decide), e, dst_at4]
theorem wgt_at6 (c : Dev nD) :
    W6 m ρ c (Proc.devRef .tc main_v18) = edgeWeight (withLoops (m ((c.tc : Thread nD τ).loc main_arg3))) := by
  have e : W5 m ρ c (Proc.devRef .tc main_v18) = W4 m ρ c (Proc.devRef .tc main_v18) := by host_keeps
  rw [W6_of_ne m ρ c main_v18 (by decide), e, wgt_at4]
theorem swapped_at6 (c : Dev nD) :
    W6 m ρ c (Proc.devRef .tc main_v19) = swapped (m ((c.tc : Thread nD τ).loc main_arg1)) := by
  have e : W5 m ρ c (Proc.devRef .tc main_v19) = W4 m ρ c (Proc.devRef .tc main_v19) := by host_keeps
  rw [W6_of_ne m ρ c main_v19 (by decide), e, W4_of_ne m ρ c main_v19 (by decide), swapped_at3]

/-! ## Across the first normalising region -/

/-- The running average after the first layer. -/
theorem avg_at6 (c : Dev nD) :
    W6 m ρ c (Proc.devRef .tc main_v38)
      = Cert.Layer.normAvg (W5 m ρ c (Proc.devRef .tc main_v37)) (avgStart (m ((c.tc : Thread nD τ).loc main_arg0))) := by
  refine (W6_arr m ρ c 2).trans ((region1_array (V5 m ρ) c).trans ?_)
  show Cert.Layer.normAvg (W5 m ρ c (Proc.devRef .tc main_v37)) (W5 m ρ c (Proc.devRef .tc main_v21)) = _
  rw [avg_at5]

/-- The first aggregation is still in its array after the region that read it. -/
theorem agg_at6 (c : Dev nD) : W6 m ρ c (Proc.devRef .tc main_v37) = W5 m ρ c (Proc.devRef .tc main_v37) :=
  (W6_arr m ρ c 0).trans (((dat1 (V5 m ρ) c).arrAt_in 0 rfl _).trans (A_eq1 (V5 m ρ) c 0))

/-! ## The second layer -/

theorem agg_at7 (c : Dev nD) : W7 m ρ c (Proc.devRef .tc main_v37) = W5 m ρ c (Proc.devRef .tc main_v37) := by
  have e : W7 m ρ c (Proc.devRef .tc main_v37) = W6 m ρ c (Proc.devRef .tc main_v37) := by host_keeps
  rw [e, agg_at6]

/-- Layer 1's matrix. -/
theorem mat1_at7 (c : Dev nD) :
    W7 m ρ c (Proc.devRef .tc main_v40) = layerMat1 (m ((c.tc : Thread nD τ).loc main_arg1)) := by
  refine (stretch2_mat (W6 m ρ c)).trans ?_
  rw [swapped_at6]
  rfl

/-- The second projection. -/
theorem proj_at8 (c : Dev nD) :
    W8 m ρ c (Proc.devRef .tc main_v41)
      = Cert.Layer.lin (W5 m ρ c (Proc.devRef .tc main_v37)) (layerMat1 (m ((c.tc : Thread nD τ).loc main_arg1))) := by
  refine (W8_arr m ρ c 2).trans ((region2_array (V7 m ρ) c).trans ?_)
  show Cert.Layer.lin (W7 m ρ c (Proc.devRef .tc main_v37)) (W7 m ρ c (Proc.devRef .tc main_v40)) = _
  rw [agg_at7, mat1_at7]

theorem src_at8 (c : Dev nD) : W8 m ρ c (Proc.devRef .tc main_v1) = withLoops (m ((c.tc : Thread nD τ).loc main_arg2)) := by
  have e : W7 m ρ c (Proc.devRef .tc main_v1) = W6 m ρ c (Proc.devRef .tc main_v1) := by host_keeps
  rw [W8_of_ne m ρ c main_v1 (by decide), e, src_at6]
theorem dst_at8 (c : Dev nD) : W8 m ρ c (Proc.devRef .tc main_v2) = withLoops (m ((c.tc : Thread nD τ).loc main_arg3)) := by
  have e : W7 m ρ c (Proc.devRef .tc main_v2) = W6 m ρ c (Proc.devRef .tc main_v2) := by host_keeps
  rw [W8_of_ne m ρ c main_v2 (by decide), e, dst_at6]
theorem wgt_at8 (c : Dev nD) :
    W8 m ρ c (Proc.devRef .tc main_v18) = edgeWeight (withLoops (m ((c.tc : Thread nD τ).loc main_arg3))) := by
  have e : W7 m ρ c (Proc.devRef .tc main_v18) = W6 m ρ c (Proc.devRef .tc main_v18) := by host_keeps
  rw [W8_of_ne m ρ c main_v18 (by decide), e, wgt_at6]
theorem avg_at8 (c : Dev nD) : W8 m ρ c (Proc.devRef .tc main_v38) = W6 m ρ c (Proc.devRef .tc main_v38) := by
  have e : W7 m ρ c (Proc.devRef .tc main_v38) = W6 m ρ c (Proc.devRef .tc main_v38) := by host_keeps
  rw [W8_of_ne m ρ c main_v38 (by decide), e]

/-- The second aggregation. -/
theorem agg_at9 (c : Dev nD) :
    W9 m ρ c (Proc.devRef .tc main_v54)
      = aggregate (W8 m ρ c (Proc.devRef .tc main_v41)) (W8 m ρ c (Proc.devRef .tc main_v1))
          (W8 m ρ c (Proc.devRef .tc main_v2)) (W8 m ρ c (Proc.devRef .tc main_v18)) := by
  exact stretch3_agg (W8 m ρ c)

theorem avg_at9 (c : Dev nD) : W9 m ρ c (Proc.devRef .tc main_v38) = W6 m ρ c (Proc.devRef .tc main_v38) := by
  have e : W9 m ρ c (Proc.devRef .tc main_v38) = W8 m ρ c (Proc.devRef .tc main_v38) := by host_keeps
  rw [e, avg_at8]

/-! ## The result -/

/-- The result buffer at the last boundary is `result` of the launch contents of the arguments. -/
theorem result_at10 (c : Dev nD) :
    W10 m ρ c (Proc.devRef .tc main_v55)
      = result (m ((c.tc : Thread nD τ).loc main_arg0)) (m ((c.tc : Thread nD τ).loc main_arg1))
          (m ((c.tc : Thread nD τ).loc main_arg2)) (m ((c.tc : Thread nD τ).loc main_arg3)) := by
  refine (W10_arr m ρ c 2).trans ((region3_array (V9 m ρ) c).trans ?_)
  show Cert.Layer.normAvg (W9 m ρ c (Proc.devRef .tc main_v54)) (W9 m ρ c (Proc.devRef .tc main_v38)) = _
  rw [agg_at9, avg_at9, avg_at6, proj_at8, src_at8, dst_at8, wgt_at8, agg_at5, proj_at4, src_at4, dst_at4, wgt_at4]
  rfl

end Cert.KernelIdeal.Hand

end
-- ==== Proof.LayerMat.lean ====
/-
  One layer's matrix, read at an entry, in the two spellings the programs use.

  The stacked weights W have shape [2, 100, 100]; the product of a layer contracts the features with the SECOND
  index of W[l], so the matrix the product reads has entry (k, q) equal to W (l, q, k).
  * One program exchanges the last two axes of the whole stack, then cuts out layer l and drops the unit axis.
  * The other cuts out layer l, drops the unit axis, then transposes the matrix.
-/
import Idealize.ShloMosaic.Lib.Pipeline.Value
import Idealize.ShloMosaic.Lib.ValueIdx
import Idealize.ShloMosaic.Lib.ValueLayout

namespace Cert.LayerMat

open Idealize.ShloMosaic Idealize.ShloMosaic.ValueIdx

variable {α : Type}

/-- Layer l cut out of a three-axis stack, at (u, i, j), is the stack at (l, i, j). -/
theorem slice_layer {n a b : ℕ} (o : ℕ) (X : (⟨3, ![n, a, b]⟩ : Shape).Idx → α)
    (h : (⟨3, ![n, a, b]⟩ : Shape).Slices ![o, 0, 0] ⟨3, ![1, a, b]⟩) (l : Fin n) (hl : l.val = o)
    (u : Fin 1) (i : Fin a) (j : Fin b) :
    extractStridedSlice ⟨3, ![1, a, b]⟩ ![o, 0, 0] X h (ix3 u i j) = X (ix3 l i j) :=
  extractStridedSlice_apply _ X h _ _ fun c => match c with
    | ⟨0, _⟩ => by
      show l.val = o + u.val
      have hu : u.val = 0 := by omega
      omega
    | ⟨1, _⟩ => by show i.val = 0 + i.val; omega
    | ⟨2, _⟩ => by show j.val = 0 + j.val; omega

/-- Exchange the last two axes of the stack, cut out layer l, drop the unit axis: entry (k, q) is W (l, q, k). -/
theorem swapped_slice_entry (o : ℕ) (W : (⟨3, ![2, 100, 100]⟩ : Shape).Idx → α)
    (ht : (⟨3, ![2, 100, 100]⟩ : Shape).Transposes [0, 2, 1] ⟨3, ![2, 100, 100]⟩)
    (hs : (⟨3, ![2, 100, 100]⟩ : Shape).Slices ![o, 0, 0] ⟨3, ![1, 100, 100]⟩)
    (hc : (⟨3, ![1, 100, 100]⟩ : Shape).ShapeCasts ⟨2, ![100, 100]⟩) (l : Fin 2) (hl : l.val = o) (k q : Fin 100) :
    shapeCast ⟨2, ![100, 100]⟩ (extractStridedSlice ⟨3, ![1, 100, 100]⟩ ![o, 0, 0]
        (transpose ⟨3, ![2, 100, 100]⟩ [0, 2, 1] W ht) hs) hc (ix2 k q)
      = W (ix3 l q k) := by
  rw [shapeCast_1ab_ab_apply, slice_layer o _ hs l hl, transpose_ix3_021_apply]

/-- Cut out layer l, drop the unit axis, transpose: entry (k, q) is W (l, q, k). -/
theorem slice_transposed_entry (o : ℕ) (W : (⟨3, ![2, 100, 100]⟩ : Shape).Idx → α)
    (hs : (⟨3, ![2, 100, 100]⟩ : Shape).Slices ![o, 0, 0] ⟨3, ![1, 100, 100]⟩)
    (hc : (⟨3, ![1, 100, 100]⟩ : Shape).ShapeCasts ⟨2, ![100, 100]⟩)
    (ht : (⟨2, ![100, 100]⟩ : Shape).Transposes [1, 0] ⟨2, ![100, 100]⟩) (l : Fin 2) (hl : l.val = o) (k q : Fin 100) :
    transpose ⟨2, ![100, 100]⟩ [1, 0] (shapeCast ⟨2, ![100, 100]⟩
        (extractStridedSlice ⟨3, ![1, 100, 100]⟩ ![o, 0, 0] W hs) hc) ht (ix2 k q)
      = W (ix3 l q k) := by
  rw [transpose_ix2_apply, shapeCast_1ab_ab_apply, slice_layer o _ hs l hl]

end Cert.LayerMat
-- ==== Proof.RLayer.lean ====
/-
  The reference program's dense operations, as the layer's two functions.

  * Its matrix product (one host operation) of the features with a layer's transposed matrix is the linear
    projection, entry by entry.
  * Its normalisation (the squares summed along each row, the square root, the larger of that and a fixed word, the
    quotient, the scaling, the sum with the running average — eleven host operations) is the normalised running
    average, entry by entry.
  * Its spelling of a layer's matrix has the same entries as the other program's.
-/
import proofs.«163798_j63307817943427_1_alg».proof.Proof.Gen.ReferenceIdeal
import proofs.«163798_j63307817943427_1_alg».proof.Proof.Layer
import proofs.«163798_j63307817943427_1_alg».proof.Proof.LayerMat
import proofs.«163798_j63307817943427_1_alg».proof.Proof.LibPlainDot
import Idealize.ShloMosaic.PureOps.Ideal.Laws
import Idealize.ShloMosaic.Lib.Pipeline.Value
import Idealize.ShloMosaic.Lib.ValueIdx

noncomputable section

open scoped BigOperators

namespace Cert.ReferenceIdeal.Hand

open Cert.ReferenceIdeal Cert.ReferenceIdeal.Facts₀ Cert.ReferenceIdeal.Facts
open Idealize.ShloMosaic Idealize.ShloMosaic.ValueIdx

/-- A node-feature array. -/
abbrev Feat := FVec Ideal S50000x100 .f32
/-- The stacked weights. -/
abbrev Wts := FVec Ideal S2x100x100 .f32
/-- One layer's matrix. -/
abbrev Mat := FVec Ideal S100x100 .f32
/-- A column of row norms. -/
abbrev Col := FVec Ideal S50000x1 .f32

/-- Layer 0's matrix, transposed, as this program spells it. -/
def refMat0 (W : Wts) : Mat :=
  transpose S100x100 [1, 0] (shapeCast S100x100 (extractStridedSlice S1x100x100 ![0, 0, 0] W slices_S2x100x100_S1x100x100_0_0_0)
    shapeCasts_S1x100x100_S100x100) transposes_S100x100_S100x100_1_0

/-- Layer 1's matrix, transposed, as this program spells it. -/
def refMat1 (W : Wts) : Mat :=
  transpose S100x100 [1, 0] (shapeCast S100x100 (extractStridedSlice S1x100x100 ![1, 0, 0] W slices_S2x100x100_S1x100x100_1_0_0)
    shapeCasts_S1x100x100_S100x100) transposes_S100x100_S100x100_1_0

/-- The host's matrix product. -/
def refLin (x : Feat) (T : Mat) : Feat :=
  Host.dotGeneral (F := Ideal) dot_S50000x100_S100x100_S50000x100_1_0_0_1_n_n none x T

/-- The column of Euclidean row norms. -/
def refNorm (x : Feat) : Col :=
  Host.sqrt (F := Ideal) (broadcastInDim S50000x1 ![0] bcast_S50000_S50000x1_0
    (Host.reduceAdd (F := Ideal) (mulf (F := Ideal) x x) (constant (F := Ideal) S_ .f32 0x00000000#32)
      reducesTo_S50000x100_S50000_d1 h_S_))

/-- The running average with row-normalised x added. -/
def refNormAvg (x avg : Feat) : Feat :=
  addf (F := Ideal) avg (mulf (F := Ideal)
    (Host.divf (F := Ideal) x (broadcastInDim S50000x100 ![0, 1] bcast_S50000x1_S50000x100_0_1
      (maximumf (F := Ideal) (refNorm x)
        (broadcastInDim S50000x1 ![] bcast_S_S50000x1 (constant (F := Ideal) S_ .f32 0x2B8CBCCC#32)))))
    (broadcastInDim S50000x100 ![] bcast_S_S50000x100 (constant (F := Ideal) S_ .f32 0x3EAAAAAB#32)))

/-- The host's matrix product is the linear projection. -/
theorem refLin_eq (x : Feat) (T : Mat) : refLin x T = Cert.Layer.lin x T := by
  funext i
  obtain ⟨p, q, rfl⟩ : ∃ (p : Fin 50000) (q : Fin 100), i = ix2 p q := ⟨i 0, i 1, eq_ix2 i⟩
  unfold refLin
  simp only [Host.dotGeneral]
  rw [Ideal.dotGeneral_apply]
  exact Cert.LibPlainDot.sum_plain dot_S50000x100_S100x100_S50000x100_1_0_0_1_n_n rfl rfl rfl rfl rfl rfl x T p q

/-- The splat of a word, read at any index, is the word's value. -/
theorem splat_apply {t : Shape} (h : S_.BroadcastsInDim t ![]) (b : BitVec 32) (j : t.Idx) :
    broadcastInDim t ![] h (constant (F := Ideal) S_ .f32 b) j = Ideal.ofBits .f32 b :=
  (broadcastInDim_apply _ h _ j ix0 (fun a => a.elim0)).trans rfl

/-- A row vector made a column, read at (p, u), is the vector at p. -/
theorem column_apply (v : FVec Ideal S50000 .f32) (p : Fin 50000) (u : Fin 1) :
    broadcastInDim S50000x1 ![0] bcast_S50000_S50000x1_0 v (ix2 p u) = v (ix1 p) :=
  broadcastInDim_apply _ bcast_S50000_S50000x1_0 v (ix2 p u) (ix1 p) (fun a => match a with
    | ⟨0, _⟩ => by show p.val = if (50000 : Nat) = 1 then 0 else p.val; rw [if_neg (by decide)])

/-- A column broadcast along the rows, read at (p, q), is the column at (p, 0). -/
theorem alongRow_apply (v : Col) (p : Fin 50000) (q : Fin 100) :
    broadcastInDim S50000x100 ![0, 1] bcast_S50000x1_S50000x100_0_1 v (ix2 p q) = v (ix2 p (0 : Fin 1)) :=
  broadcastInDim_apply _ bcast_S50000x1_S50000x100_0_1 v (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

/-- The host's sum of a row's squares from the zero word. -/
theorem rowSum_apply (x : Feat) (p : Fin 50000) :
    Host.reduceAdd (F := Ideal) (mulf (F := Ideal) x x) (constant (F := Ideal) S_ .f32 0x00000000#32)
      reducesTo_S50000x100_S50000_d1 h_S_ (ix1 p) = Cert.Layer.rowSq x p := by
  have hR : S50000x100.Reduces [1] S50000 := by decide
  simp only [Host.reduceAdd, Ideal.hostReduceAdd_def]
  rw [Ideal.hostReduceAdd_single reducesTo_S50000x100_S50000_d1 hR, constant_apply, Ideal.ofBits_zero_f32, zero_add]
  unfold Cert.Layer.rowSq
  refine Finset.sum_congr rfl fun k _ => ?_
  have e : hR.lift (ix1 p) k = ix2 p (⟨k.val, k.isLt⟩ : Fin 100) :=
    funext fun a => Fin.ext (by match a with | ⟨0, _⟩ => rfl | ⟨1, _⟩ => rfl)
  rw [e]
  rfl

/-- The column of row norms at row p: the square root of the sum of the row's squares. -/
theorem refNorm_apply (x : Feat) (p : Fin 50000) (u : Fin 1) :
    refNorm x (ix2 p u) = Ideal.sqrt (Cert.Layer.rowSq x p) := by
  unfold refNorm Host.sqrt
  dsimp only
  rw [column_apply, rowSum_apply]
  rfl

/-- The host's normalisation is the normalised running average. -/
theorem refNormAvg_eq (x avg : Feat) : refNormAvg x avg = Cert.Layer.normAvg x avg := by
  funext i
  obtain ⟨p, q, rfl⟩ : ∃ (p : Fin 50000) (q : Fin 100), i = ix2 p q := ⟨i 0, i 1, eq_ix2 i⟩
  unfold refNormAvg Host.divf
  simp only [addf_apply, mulf_apply, Ideal.hostDivf_def]
  rw [alongRow_apply, splat_apply]
  simp only [maximumf_apply]
  rw [splat_apply, refNorm_apply]
  rfl

/-- This program's spelling of layer 0's matrix at an entry. -/
theorem refMat0_apply (W : Wts) (k q : Fin 100) : refMat0 W (ix2 k q) = W (ix3 (0 : Fin 2) q k) :=
  Cert.LayerMat.slice_transposed_entry 0 W slices_S2x100x100_S1x100x100_0_0_0 shapeCasts_S1x100x100_S100x100
    transposes_S100x100_S100x100_1_0 0 rfl k q

/-- This program's spelling of layer 1's matrix at an entry. -/
theorem refMat1_apply (W : Wts) (k q : Fin 100) : refMat1 W (ix2 k q) = W (ix3 (1 : Fin 2) q k) :=
  Cert.LayerMat.slice_transposed_entry 1 W slices_S2x100x100_S1x100x100_1_0_0 shapeCasts_S1x100x100_S100x100
    transposes_S100x100_S100x100_1_0 1 rfl k q

end Cert.ReferenceIdeal.Hand

end
-- ==== Proof.KMat.lean ====
/-
  A layer's matrix, as the kernel program spells it, read at an entry.
-/
import proofs.«163798_j63307817943427_1_alg».proof.Proof.Sparse
import proofs.«163798_j63307817943427_1_alg».proof.Proof.LayerMat

noncomputable section

namespace Cert.KernelIdeal.Hand

open Cert.KernelIdeal Cert.KernelIdeal.Facts₀ Cert.KernelIdeal.Facts
open Idealize.ShloMosaic Idealize.ShloMosaic.ValueIdx

/-- Layer 0's matrix at (k, q) is the stacked weights at (0, q, k). -/
theorem layerMat0_apply (W : Wts) (k q : Fin 100) : layerMat0 W (ix2 k q) = W (ix3 (0 : Fin 2) q k) :=
  Cert.LayerMat.swapped_slice_entry 0 W transposes_S2x100x100_S2x100x100_0_2_1 slices_S2x100x100_S1x100x100_0_0_0
    shapeCasts_S1x100x100_S100x100 0 rfl k q

/-- Layer 1's matrix at (k, q) is the stacked weights at (1, q, k). -/
theorem layerMat1_apply (W : Wts) (k q : Fin 100) : layerMat1 W (ix2 k q) = W (ix3 (1 : Fin 2) q k) :=
  Cert.LayerMat.swapped_slice_entry 1 W transposes_S2x100x100_S2x100x100_0_2_1 slices_S2x100x100_S1x100x100_1_0_0
    shapeCasts_S1x100x100_S100x100 1 rfl k q

end Cert.KernelIdeal.Hand

end
-- ==== Proof.LibNaryThree.lean ====
/-
  General facts about a line of host operations, for reading what it leaves in a buffer.

  * A host operation over a literal family of THREE operand buffers (a concatenation of three arrays), read at its
    result buffer, is the operation's function applied to the three operands' contents, each read AT ITS OWN
    BUFFER (the general statement reads operand `k` at the buffer `xs k`, under a binder).
  * The buffers' contents after two lines run one after the other are the second line's over the first line's.
  * Two or three arrays joined along an axis, with the operands as plain arguments: `concatenate` takes a list of
    shape–array pairs, and an array inside such a pair can only be rewritten when its type is literally the
    pair's; as a plain argument it can be rewritten like any other operand.
  * One simplification pass that evaluates a literal line of host operations at a literal buffer down to a term of
    the launch contents, two-array joins included; a three-array join is read by a lemma stated for the program's
    own operation over `cat3`, passed to the pass.
-/
import Idealize.ShloMosaic.Lib.StableHlo.Run

namespace Cert.Lib

open Idealize.ShloMosaic Idealize.ShloMosaic.StableHlo Idealize.SL.Sem

variable {τ : Topo} {sig : RefSig} {Val : EltTy → Type}

/-- A three-operand host operation's result, read at its result buffer, is its function of the three operands'
    contents, each read at its own buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for a simplification pass. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Two lines of host operations run one after the other: the second line's results over the first line's. -/
theorem after_append (l₁ l₂ : List (HloOp τ sig Val)) (V : Valuation τ sig Val) :
    after (l₁ ++ l₂) V = after l₂ (after l₁ V) := by
  induction l₁ generalizing V with
  | nil => rfl
  | cons op l ih => exact ih _

/-- Two arrays joined along an axis, the operands as plain arguments (the library's `concatenate` takes a list of
    shape–array pairs, whose second components no rewriting pass can enter once their types are only definitionally
    the stated ones). -/
def cat2 {α : Type} (S : Shape) (d : Fin S.rank) (S1 S2 : Shape) (h : Shape.Concatenates [S1, S2] S d)
    (a : S1.Idx → α) (b : S2.Idx → α) : S.Idx → α := concatenate S d [⟨S1, a⟩, ⟨S2, b⟩] h

theorem cat2_eq {α : Type} (S : Shape) (d : Fin S.rank) (S1 S2 : Shape) (h : Shape.Concatenates [S1, S2] S d)
    (a : S1.Idx → α) (b : S2.Idx → α) : concatenate S d [⟨S1, a⟩, ⟨S2, b⟩] h = cat2 S d S1 S2 h a b := rfl

/-- Three arrays joined along an axis, the operands as plain arguments. -/
def cat3 {α : Type} (S : Shape) (d : Fin S.rank) (S1 S2 S3 : Shape) (h : Shape.Concatenates [S1, S2, S3] S d)
    (a : S1.Idx → α) (b : S2.Idx → α) (c : S3.Idx → α) : S.Idx → α := concatenate S d [⟨S1, a⟩, ⟨S2, b⟩, ⟨S3, c⟩] h

/-- Evaluates `after ops V b` for a literal line `ops` and a literal buffer `b` in one simplification pass. -/
macro "eval_after" "[" extra:Lean.Parser.Tactic.simpLemma,* "]" : tactic =>
  `(tactic| (simp (disch := decide) only [$extra,*, after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne', Cert.Lib.cat2_eq]))

end Cert.Lib
-- ==== Proof.RStages.lean ====
/-
  The reference program's run, read stage by stage.

  The program is ninety-nine host operations in a line.  Cut into nine stretches — the edge lists and degrees; the node
  weights; the edge weights; the first projection; the first aggregation; the first normalisation; the second
  projection; the second aggregation; the second normalisation — each stretch, over any contents it is entered with,
  leaves in its result buffer one named function of the buffers it reads, and keeps every buffer it does not write.
  Composed, the result buffer ends at the same function of the four arguments as the other program's.
-/
import proofs.«163798_j63307817943427_1_alg».proof.Proof.RefRunP
import proofs.«163798_j63307817943427_1_alg».proof.Proof.RLayer
import proofs.«163798_j63307817943427_1_alg».proof.Proof.Sparse
import proofs.«163798_j63307817943427_1_alg».proof.Proof.KMat
import proofs.«163798_j63307817943427_1_alg».proof.Proof.LibNaryThree
import proofs.«163798_j63307817943427_1_alg».proof.Proof.LibConcatenateCongr

set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo
open Idealize.ShloMosaic.ValueIdx

-- a rewriting pass reaches the two pieces of a concatenation through this rule
attribute [local congr] Cert.Lib.concatenate_pair_congr

section Segments
variable {F : FTy → Type} [FloatOps F]

/-- The edge lists with self loops, the degrees, the mask of nodes with an edge, the reciprocal degrees. -/
abbrev opsA1 : List (HloOp τ sig (Elt F)) :=
  [ nullary main_v0 (iotaInDim S50000 32 0),
    binary main_arg2 main_v0 main_v1 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_arg3 main_v0 main_v2 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v3 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v4 (broadcastInDim S50000 ![] bcast_S_S50000 : (⟨S_, .f32⟩ : BufTy).Contents (Elt F) → (⟨S50000, .f32⟩ : BufTy).Contents (Elt F)),
    unary main_v2 main_v5 (broadcastInDim S850000x1 ![0] bcast_S850000_S850000x1_0 : (⟨S850000, .i32⟩ : BufTy).Contents (Elt F) → (⟨S850000x1, .i32⟩ : BufTy).Contents (Elt F)),
    ternary main_v4 main_v5 main_v3 main_v6 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v7 (broadcastInDim S50000 ![] bcast_S_S50000 : (⟨S_, .f32⟩ : BufTy).Contents (Elt F) → (⟨S50000, .f32⟩ : BufTy).Contents (Elt F)),
    binary main_v6 main_v7 main_v8 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v9 (broadcastInDim S50000 ![] bcast_S_S50000 : (⟨S_, .f32⟩ : BufTy).Contents (Elt F) → (⟨S50000, .f32⟩ : BufTy).Contents (Elt F)),
    binary main_v9 main_v6 main_v10 (Host.divf : (⟨S50000, .f32⟩ : BufTy).Contents (Elt F) → (⟨S50000, .f32⟩ : BufTy).Contents (Elt F) → (⟨S50000, .f32⟩ : BufTy).Contents (Elt F)),
    nullary main_cst_3 (constant S_ .f32 0x00000000#32) ]

/-- The node weights: the reciprocal degree under the mask, a fallback word elsewhere. -/
abbrev opsA2 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v8) (TRef.of (T := ⟨S50000, .f32⟩) main_v10) (TRef.of (T := ⟨S50000, .f32⟩) main_call0_v1) (TRef.of (T := ⟨S50000, .f32⟩) main_v11) select ]

/-- The per-edge weights: the node weights gathered at the destinations. -/
abbrev opsA3 : List (HloOp τ sig (Elt F)) :=
  [ nullary main_c (constantI S_ 32 0#32),
    unary main_c main_v12 (broadcastInDim S850000 ![] bcast_S_S850000 : (⟨S_, .i32⟩ : BufTy).Contents (Elt F) → (⟨S850000, .i32⟩ : BufTy).Contents (Elt F)),
    binary main_v2 main_v12 main_v13 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v14 (broadcastInDim S850000 ![] bcast_S_S850000 : (⟨S_, .i32⟩ : BufTy).Contents (Elt F) → (⟨S850000, .i32⟩ : BufTy).Contents (Elt F)),
    binary main_v2 main_v14 main_v15 (addi : (⟨S850000, .i32⟩ : BufTy).Contents (Elt F) → (⟨S850000, .i32⟩ : BufTy).Contents (Elt F) → (⟨S850000, .i32⟩ : BufTy).Contents (Elt F)),
    ternary main_v13 main_v15 main_v2 main_v16 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v16 main_v17 (broadcastInDim S850000x1 ![0] bcast_S850000_S850000x1_0 : (⟨S850000, .i32⟩ : BufTy).Contents (Elt F) → (⟨S850000x1, .i32⟩ : BufTy).Contents (Elt F)),
    binary main_v11 main_v17 main_v18 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) ]

/-- The running average's first term, layer 0's matrix, the first projection. -/
abbrev opsB : List (HloOp τ sig (Elt F)) :=
  [ nullary main_cst_5 (constant S_ .f32 0x3EAAAAAB#32),
    unary main_cst_5 main_v19 (broadcastInDim S50000x100 ![] bcast_S_S50000x100 : (⟨S_, .f32⟩ : BufTy).Contents (Elt F) → (⟨S50000x100, .f32⟩ : BufTy).Contents (Elt F)),
    binary main_arg0 main_v19 main_v20 (mulf : (⟨S50000x100, .f32⟩ : BufTy).Contents (Elt F) → (⟨S50000x100, .f32⟩ : BufTy).Contents (Elt F) → (⟨S50000x100, .f32⟩ : BufTy).Contents (Elt F)),
    unary main_arg1 main_v21 ((extractStridedSlice S1x100x100 ![0, 0, 0] · slices_S2x100x100_S1x100x100_0_0_0) : (⟨S2x100x100, .f32⟩ : BufTy).Contents (Elt F) → (⟨S1x100x100, .f32⟩ : BufTy).Contents (Elt F)),
    reshape main_v21 main_v22 rfl shapeCasts_S1x100x100_S100x100,
    unary main_v22 main_v23 ((transpose S100x100 [1, 0] · transposes_S100x100_S100x100_1_0) : (⟨S100x100, .f32⟩ : BufTy).Contents (Elt F) → (⟨S100x100, .f32⟩ : BufTy).Contents (Elt F)),
    binary main_arg0 main_v23 main_v24 ((fun l r => Host.dotGeneral dot_S50000x100_S100x100_S50000x100_1_0_0_1_n_n none l r) : (⟨S50000x100, .f32⟩ : BufTy).Contents (Elt F) → (⟨S100x100, .f32⟩ : BufTy).Contents (Elt F) → (⟨S50000x100, .f32⟩ : BufTy).Contents (Elt F)) ]

/-- The first aggregation. -/
abbrev opsC : List (HloOp τ sig (Elt F)) :=
  [ unary main_v18 main_v25 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v26 (broadcastInDim S850000 ![] bcast_S_S850000 : (⟨S_, .i32⟩ : BufTy).Contents (Elt F) → (⟨S850000, .i32⟩ : BufTy).Contents (Elt F)),
    binary main_v1 main_v26 main_v27 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v28 (broadcastInDim S850000 ![] bcast_S_S850000 : (⟨S_, .i32⟩ : BufTy).Contents (Elt F) → (⟨S850000, .i32⟩ : BufTy).Contents (Elt F)),
    binary main_v1 main_v28 main_v29 (addi : (⟨S850000, .i32⟩ : BufTy).Contents (Elt F) → (⟨S850000, .i32⟩ : BufTy).Contents (Elt F) → (⟨S850000, .i32⟩ : BufTy).Contents (Elt F)),
    ternary main_v27 main_v29 main_v1 main_v30 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v30 main_v31 (broadcastInDim S850000x1 ![0] bcast_S850000_S850000x1_0 : (⟨S850000, .i32⟩ : BufTy).Contents (Elt F) → (⟨S850000x1, .i32⟩ : BufTy).Contents (Elt F)),
    binary main_v24 main_v31 main_v32 ((fun x i => Host.gather gather_S50000x100_S850000x1_S850000x100_1_0_n_n_0_1_1100 x i) : (⟨S50000x100, .f32⟩ : BufTy).Contents (Elt F) → (⟨S850000x1, .i32⟩ : BufTy).Contents (Elt F) → (⟨S850000x100, .f32⟩ : BufTy).Contents (Elt F)),
    unary main_v25 main_v33 (broadcastInDim S850000x100 ![0, 1] bcast_S850000x1_S850000x100_0_1 : (⟨S850000x1, .f32⟩ : BufTy).Contents (Elt F) → (⟨S850000x100, .f32⟩ : BufTy).Contents (Elt F)),
    binary main_v33 main_v32 main_v34 (mulf : (⟨S850000x100, .f32⟩ : BufTy).Contents (Elt F) → (⟨S850000x100, .f32⟩ : BufTy).Contents (Elt F) → (⟨S850000x100, .f32⟩ : BufTy).Contents (Elt F)),
    nullary main_cst_8 (constant S_ .f32 0x00000000#32),
    unary main_cst_8 main_v35 (broadcastInDim S50000x100 ![] bcast_S_S50000x100 : (⟨S_, .f32⟩ : BufTy).Contents (Elt F) → (⟨S50000x100, .f32⟩ : BufTy).Contents (Elt F)),
    unary main_v2 main_v36 (broadcastInDim S850000x1 ![0] bcast_S850000_S850000x1_0 : (⟨S850000, .i32⟩ : BufTy).Contents (Elt F) → (⟨S850000x1, .i32⟩ : BufTy).Contents (Elt F)),
    ternary main_v35 main_v36 main_v34 main_v37 ((fun x i u => Host.scatterAdd scatter_S50000x100_S850000x1_S850000x100_1_0_0_1 x i u) : (⟨S50000x100, .f32⟩ : BufTy).Contents (Elt F) → (⟨S850000x1, .i32⟩ : BufTy).Contents (Elt F) → (⟨S850000x100, .f32⟩ : BufTy).Contents (Elt F) → (⟨S50000x100, .f32⟩ : BufTy).Contents (Elt F)) ]

/-- The first normalisation. -/
abbrev opsD : List (HloOp τ sig (Elt F)) :=
  [ TRef.binary (TRef.of (T := ⟨S50000x100, .f32⟩) main_v37) (TRef.of (T := ⟨S50000x100, .f32⟩) main_v37) (TRef.of (T := ⟨S50000x100, .f32⟩) main_call1_v0) mulf,
    TRef.nullary (TRef.of (T := ⟨S_, .f32⟩) main_call1_cst) (constant S_ .f32 0x00000000#32),
    TRef.binary (TRef.of (T := ⟨S50000x100, .f32⟩) main_call1_v0) (TRef.of (T := ⟨S_, .f32⟩) main_call1_cst) (TRef.of (T := ⟨S50000, .f32⟩) main_call1_v1) (fun x v => Host.reduceAdd x v reducesTo_S50000x100_S50000_d1 h_S_),
    TRef.unary (TRef.of (T := ⟨S50000, .f32⟩) main_call1_v1) (TRef.of (T := ⟨S50000x1, .f32⟩) main_call1_v2) (broadcastInDim S50000x1 ![0] bcast_S50000_S50000x1_0),
    TRef.unary (TRef.of (T := ⟨S50000x1, .f32⟩) main_call1_v2) (TRef.of (T := ⟨S50000x1, .f32⟩) main_v38) Host.sqrt,
    nullary main_cst_9 (constant S_ .f32 0x2B8CBCCC#32),
    unary main_cst_9 main_v39 (broadcastInDim S50000x1 ![] bcast_S_S50000x1 : (⟨S_, .f32⟩ : BufTy).Contents (Elt F) → (⟨S50000x1, .f32⟩ : BufTy).Contents (Elt F)),
    binary main_v38 main_v39 main_v40 (maximumf : (⟨S50000x1, .f32⟩ : BufTy).Contents (Elt F) → (⟨S50000x1, .f32⟩ : BufTy).Contents (Elt F) → (⟨S50000x1, .f32⟩ : BufTy).Contents (Elt F)),
    unary main_v40 main_v41 (broadcastInDim S50000x100 ![0, 1] bcast_S50000x1_S50000x100_0_1 : (⟨S50000x1, .f32⟩ : BufTy).Contents (Elt F) → (⟨S50000x100, .f32⟩ : BufTy).Contents (Elt F)),
    binary main_v37 main_v41 main_v42 (Host.divf : (⟨S50000x100, .f32⟩ : BufTy).Contents (Elt F) → (⟨S50000x100, .f32⟩ : BufTy).Contents (Elt F) → (⟨S50000x100, .f32⟩ : BufTy).Contents (Elt F)),
    nullary main_cst_10 (constant S_ .f32 0x3EAAAAAB#32),
    unary main_cst_10 main_v43 (broadcastInDim S50000x100 ![] bcast_S_S50000x100 : (⟨S_, .f32⟩ : BufTy).Contents (Elt F) → (⟨S50000x100, .f32⟩ : BufTy).Contents (Elt F)),
    binary main_v42 main_v43 main_v44 (mulf : (⟨S50000x100, .f32⟩ : BufTy).Contents (Elt F) → (⟨S50000x100, .f32⟩ : BufTy).Contents (Elt F) → (⟨S50000x100, .f32⟩ : BufTy).Contents (Elt F)),
    binary main_v20 main_v44 main_v45 (addf : (⟨S50000x100, .f32⟩ : BufTy).Contents (Elt F) → (⟨S50000x100, .f32⟩ : BufTy).Contents (Elt F) → (⟨S50000x100, .f32⟩ : BufTy).Contents (Elt F)) ]

/-- Layer 1's matrix and the second projection. -/
abbrev opsE : List (HloOp τ sig (Elt F)) :=
  [ unary main_arg1 main_v46 ((extractStridedSlice S1x100x100 ![1, 0, 0] · slices_S2x100x100_S1x100x100_1_0_0) : (⟨S2x100x100, .f32⟩ : BufTy).Contents (Elt F) → (⟨S1x100x100, .f32⟩ : BufTy).Contents (Elt F)),
    reshape main_v46 main_v47 rfl shapeCasts_S1x100x100_S100x100,
    unary main_v47 main_v48 ((transpose S100x100 [1, 0] · transposes_S100x100_S100x100_1_0) : (⟨S100x100, .f32⟩ : BufTy).Contents (Elt F) → (⟨S100x100, .f32⟩ : BufTy).Contents (Elt F)),
    binary main_v37 main_v48 main_v49 ((fun l r => Host.dotGeneral dot_S50000x100_S100x100_S50000x100_1_0_0_1_n_n none l r) : (⟨S50000x100, .f32⟩ : BufTy).Contents (Elt F) → (⟨S100x100, .f32⟩ : BufTy).Contents (Elt F) → (⟨S50000x100, .f32⟩ : BufTy).Contents (Elt F)) ]

/-- The second aggregation. -/
abbrev opsF : List (HloOp τ sig (Elt F)) :=
  [ unary main_v18 main_v50 (broadcastInDim S850000x1 ![0] bcast_S850000_S850000x1_0 : (⟨S850000, .f32⟩ : BufTy).Contents (Elt F) → (⟨S850000x1, .f32⟩ : BufTy).Contents (Elt F)),
    nullary main_c_11 (constantI S_ 32 0#32),
    unary main_c_11 main_v51 (broadcastInDim S850000 ![] bcast_S_S850000 : (⟨S_, .i32⟩ : BufTy).Contents (Elt F) → (⟨S850000, .i32⟩ : BufTy).Contents (Elt F)),
    binary main_v1 main_v51 main_v52 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v53 (broadcastInDim S850000 ![] bcast_S_S850000 : (⟨S_, .i32⟩ : BufTy).Contents (Elt F) → (⟨S850000, .i32⟩ : BufTy).Contents (Elt F)),
    binary main_v1 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v1 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v49 main_v56 main_v57 ((fun x i => Host.gather gather_S50000x100_S850000x1_S850000x100_1_0_n_n_0_1_1100 x i) : (⟨S50000x100, .f32⟩ : BufTy).Contents (Elt F) → (⟨S850000x1, .i32⟩ : BufTy).Contents (Elt F) → (⟨S850000x100, .f32⟩ : BufTy).Contents (Elt F)),
    unary main_v50 main_v58 (broadcastInDim S850000x100 ![0, 1] bcast_S850000x1_S850000x100_0_1 : (⟨S850000x1, .f32⟩ : BufTy).Contents (Elt F) → (⟨S850000x100, .f32⟩ : BufTy).Contents (Elt F)),
    binary main_v58 main_v57 main_v59 (mulf : (⟨S850000x100, .f32⟩ : BufTy).Contents (Elt F) → (⟨S850000x100, .f32⟩ : BufTy).Contents (Elt F) → (⟨S850000x100, .f32⟩ : BufTy).Contents (Elt F)),
    nullary main_cst_13 (constant S_ .f32 0x00000000#32),
    unary main_cst_13 main_v60 (broadcastInDim S50000x100 ![] bcast_S_S50000x100 : (⟨S_, .f32⟩ : BufTy).Contents (Elt F) → (⟨S50000x100, .f32⟩ : BufTy).Contents (Elt F)),
    unary main_v2 main_v61 (broadcastInDim S850000x1 ![0] bcast_S850000_S850000x1_0 : (⟨S850000, .i32⟩ : BufTy).Contents (Elt F) → (⟨S850000x1, .i32⟩ : BufTy).Contents (Elt F)),
    ternary main_v60 main_v61 main_v59 main_v62 ((fun x i u => Host.scatterAdd scatter_S50000x100_S850000x1_S850000x100_1_0_0_1 x i u) : (⟨S50000x100, .f32⟩ : BufTy).Contents (Elt F) → (⟨S850000x1, .i32⟩ : BufTy).Contents (Elt F) → (⟨S850000x100, .f32⟩ : BufTy).Contents (Elt F) → (⟨S50000x100, .f32⟩ : BufTy).Contents (Elt F)) ]

/-- The second normalisation. -/
abbrev opsG : List (HloOp τ sig (Elt F)) :=
  [ TRef.binary (TRef.of (T := ⟨S50000x100, .f32⟩) main_v62) (TRef.of (T := ⟨S50000x100, .f32⟩) main_v62) (TRef.of (T := ⟨S50000x100, .f32⟩) main_call2_v0) mulf,
    TRef.nullary (TRef.of (T := ⟨S_, .f32⟩) main_call2_cst) (constant S_ .f32 0x00000000#32),
    TRef.binary (TRef.of (T := ⟨S50000x100, .f32⟩) main_call2_v0) (TRef.of (T := ⟨S_, .f32⟩) main_call2_cst) (TRef.of (T := ⟨S50000, .f32⟩) main_call2_v1) (fun x v => Host.reduceAdd x v reducesTo_S50000x100_S50000_d1 h_S_),
    TRef.unary (TRef.of (T := ⟨S50000, .f32⟩) main_call2_v1) (TRef.of (T := ⟨S50000x1, .f32⟩) main_call2_v2) (broadcastInDim S50000x1 ![0] bcast_S50000_S50000x1_0),
    TRef.unary (TRef.of (T := ⟨S50000x1, .f32⟩) main_call2_v2) (TRef.of (T := ⟨S50000x1, .f32⟩) main_v63) Host.sqrt,
    nullary main_cst_14 (constant S_ .f32 0x2B8CBCCC#32),
    unary main_cst_14 main_v64 (broadcastInDim S50000x1 ![] bcast_S_S50000x1 : (⟨S_, .f32⟩ : BufTy).Contents (Elt F) → (⟨S50000x1, .f32⟩ : BufTy).Contents (Elt F)),
    binary main_v63 main_v64 main_v65 (maximumf : (⟨S50000x1, .f32⟩ : BufTy).Contents (Elt F) → (⟨S50000x1, .f32⟩ : BufTy).Contents (Elt F) → (⟨S50000x1, .f32⟩ : BufTy).Contents (Elt F)),
    unary main_v65 main_v66 (broadcastInDim S50000x100 ![0, 1] bcast_S50000x1_S50000x100_0_1 : (⟨S50000x1, .f32⟩ : BufTy).Contents (Elt F) → (⟨S50000x100, .f32⟩ : BufTy).Contents (Elt F)),
    binary main_v62 main_v66 main_v67 (Host.divf : (⟨S50000x100, .f32⟩ : BufTy).Contents (Elt F) → (⟨S50000x100, .f32⟩ : BufTy).Contents (Elt F) → (⟨S50000x100, .f32⟩ : BufTy).Contents (Elt F)),
    nullary main_cst_15 (constant S_ .f32 0x3EAAAAAB#32),
    unary main_cst_15 main_v68 (broadcastInDim S50000x100 ![] bcast_S_S50000x100 : (⟨S_, .f32⟩ : BufTy).Contents (Elt F) → (⟨S50000x100, .f32⟩ : BufTy).Contents (Elt F)),
    binary main_v67 main_v68 main_v69 (mulf : (⟨S50000x100, .f32⟩ : BufTy).Contents (Elt F) → (⟨S50000x100, .f32⟩ : BufTy).Contents (Elt F) → (⟨S50000x100, .f32⟩ : BufTy).Contents (Elt F)),
    binary main_v45 main_v69 main_v70 (addf : (⟨S50000x100, .f32⟩ : BufTy).Contents (Elt F) → (⟨S50000x100, .f32⟩ : BufTy).Contents (Elt F) → (⟨S50000x100, .f32⟩ : BufTy).Contents (Elt F)) ]

/-- The program's line is the nine stretches one after the other. -/
theorem ops_split : (ops : List (HloOp τ sig (Elt F)))
    = opsA1 ++ (opsA2 ++ (opsA3 ++ (opsB ++ (opsC ++ (opsD ++ (opsE ++ (opsF ++ opsG))))))) := rfl

end Segments

/-- The contents after the whole line are the stretches' results folded in order. -/
theorem after_ops (V : Valuation τ sig (Elt Ideal)) :
    after (ops (F := Ideal)) V
      = after opsG (after opsF (after opsE (after opsD (after opsC (after opsB (after opsA3 (after opsA2 (after opsA1 V)))))))) := by
  rw [ops_split]
  simp only [Cert.Lib.after_append]

/-- A buffer none of a stretch's operations writes keeps its contents across the stretch. -/
macro "seg_keeps" : tactic =>
  `(tactic| exact StableHlo.after_of_forall_not_mem _ _ (List.forall_iff_forall_mem.mp (by
      simp only [opsA1, opsA2, opsA3, opsB, opsC, opsD, opsE, opsF, opsG, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The arguments: no operation of the line writes one -/

/-- A buffer none of the line's operations writes keeps its contents. -/
macro "line_keeps" : tactic =>
  `(tactic| exact StableHlo.after_of_forall_not_mem _ _ (List.forall_iff_forall_mem.mp (by
      simp only [ops, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

theorem arg0_after (V : Valuation τ sig (Elt Ideal)) :
    after (ops (F := Ideal)) V (Proc.devRef .tc main_arg0) = V (Proc.devRef .tc main_arg0) := by line_keeps
theorem arg1_after (V : Valuation τ sig (Elt Ideal)) :
    after (ops (F := Ideal)) V (Proc.devRef .tc main_arg1) = V (Proc.devRef .tc main_arg1) := by line_keeps
theorem arg2_after (V : Valuation τ sig (Elt Ideal)) :
    after (ops (F := Ideal)) V (Proc.devRef .tc main_arg2) = V (Proc.devRef .tc main_arg2) := by line_keeps
theorem arg3_after (V : Valuation τ sig (Elt Ideal)) :
    after (ops (F := Ideal)) V (Proc.devRef .tc main_arg3) = V (Proc.devRef .tc main_arg3) := by line_keeps

/-! ## What each stretch keeps -/

theorem keep_opsA2_main_v1 (V : Valuation τ sig (Elt Ideal)) :
    after (opsA2 (F := Ideal)) V (Proc.devRef .tc main_v1) = V (Proc.devRef .tc main_v1) := by seg_keeps
theorem keep_opsA3_main_v1 (V : Valuation τ sig (Elt Ideal)) :
    after (opsA3 (F := Ideal)) V (Proc.devRef .tc main_v1) = V (Proc.devRef .tc main_v1) := by seg_keeps
theorem keep_opsB_main_v1 (V : Valuation τ sig (Elt Ideal)) :
    after (opsB (F := Ideal)) V (Proc.devRef .tc main_v1) = V (Proc.devRef .tc main_v1) := by seg_keeps
theorem keep_opsC_main_v1 (V : Valuation τ sig (Elt Ideal)) :
    after (opsC (F := Ideal)) V (Proc.devRef .tc main_v1) = V (Proc.devRef .tc main_v1) := by seg_keeps
theorem keep_opsD_main_v1 (V : Valuation τ sig (Elt Ideal)) :
    after (opsD (F := Ideal)) V (Proc.devRef .tc main_v1) = V (Proc.devRef .tc main_v1) := by seg_keeps
theorem keep_opsE_main_v1 (V : Valuation τ sig (Elt Ideal)) :
    after (opsE (F := Ideal)) V (Proc.devRef .tc main_v1) = V (Proc.devRef .tc main_v1) := by seg_keeps
theorem keep_opsA2_main_v2 (V : Valuation τ sig (Elt Ideal)) :
    after (opsA2 (F := Ideal)) V (Proc.devRef .tc main_v2) = V (Proc.devRef .tc main_v2) := by seg_keeps
theorem keep_opsA3_main_v2 (V : Valuation τ sig (Elt Ideal)) :
    after (opsA3 (F := Ideal)) V (Proc.devRef .tc main_v2) = V (Proc.devRef .tc main_v2) := by seg_keeps
theorem keep_opsB_main_v2 (V : Valuation τ sig (Elt Ideal)) :
    after (opsB (F := Ideal)) V (Proc.devRef .tc main_v2) = V (Proc.devRef .tc main_v2) := by seg_keeps
theorem keep_opsC_main_v2 (V : Valuation τ sig (Elt Ideal)) :
    after (opsC (F := Ideal)) V (Proc.devRef .tc main_v2) = V (Proc.devRef .tc main_v2) := by seg_keeps
theorem keep_opsD_main_v2 (V : Valuation τ sig (Elt Ideal)) :
    after (opsD (F := Ideal)) V (Proc.devRef .tc main_v2) = V (Proc.devRef .tc main_v2) := by seg_keeps
theorem keep_opsE_main_v2 (V : Valuation τ sig (Elt Ideal)) :
    after (opsE (F := Ideal)) V (Proc.devRef .tc main_v2) = V (Proc.devRef .tc main_v2) := by seg_keeps
theorem keep_opsB_main_v18 (V : Valuation τ sig (Elt Ideal)) :
    after (opsB (F := Ideal)) V (Proc.devRef .tc main_v18) = V (Proc.devRef .tc main_v18) := by seg_keeps
theorem keep_opsC_main_v18 (V : Valuation τ sig (Elt Ideal)) :
    after (opsC (F := Ideal)) V (Proc.devRef .tc main_v18) = V (Proc.devRef .tc main_v18) := by seg_keeps
theorem keep_opsD_main_v18 (V : Valuation τ sig (Elt Ideal)) :
    after (opsD (F := Ideal)) V (Proc.devRef .tc main_v18) = V (Proc.devRef .tc main_v18) := by seg_keeps
theorem keep_opsE_main_v18 (V : Valuation τ sig (Elt Ideal)) :
    after (opsE (F := Ideal)) V (Proc.devRef .tc main_v18) = V (Proc.devRef .tc main_v18) := by seg_keeps
theorem keep_opsA1_main_arg0 (V : Valuation τ sig (Elt Ideal)) :
    after (opsA1 (F := Ideal)) V (Proc.devRef .tc main_arg0) = V (Proc.devRef .tc main_arg0) := by seg_keeps
theorem keep_opsA2_main_arg0 (V : Valuation τ sig (Elt Ideal)) :
    after (opsA2 (F := Ideal)) V (Proc.devRef .tc main_arg0) = V (Proc.devRef .tc main_arg0) := by seg_keeps
theorem keep_opsA3_main_arg0 (V : Valuation τ sig (Elt Ideal)) :
    after (opsA3 (F := Ideal)) V (Proc.devRef .tc main_arg0) = V (Proc.devRef .tc main_arg0) := by seg_keeps
theorem keep_opsA1_main_arg1 (V : Valuation τ sig (Elt Ideal)) :
    after (opsA1 (F := Ideal)) V (Proc.devRef .tc main_arg1) = V (Proc.devRef .tc main_arg1) := by seg_keeps
theorem keep_opsA2_main_arg1 (V : Valuation τ sig (Elt Ideal)) :
    after (opsA2 (F := Ideal)) V (Proc.devRef .tc main_arg1) = V (Proc.devRef .tc main_arg1) := by seg_keeps
theorem keep_opsA3_main_arg1 (V : Valuation τ sig (Elt Ideal)) :
    after (opsA3 (F := Ideal)) V (Proc.devRef .tc main_arg1) = V (Proc.devRef .tc main_arg1) := by seg_keeps
theorem keep_opsB_main_arg1 (V : Valuation τ sig (Elt Ideal)) :
    after (opsB (F := Ideal)) V (Proc.devRef .tc main_arg1) = V (Proc.devRef .tc main_arg1) := by seg_keeps
theorem keep_opsC_main_arg1 (V : Valuation τ sig (Elt Ideal)) :
    after (opsC (F := Ideal)) V (Proc.devRef .tc main_arg1) = V (Proc.devRef .tc main_arg1) := by seg_keeps
theorem keep_opsD_main_arg1 (V : Valuation τ sig (Elt Ideal)) :
    after (opsD (F := Ideal)) V (Proc.devRef .tc main_arg1) = V (Proc.devRef .tc main_arg1) := by seg_keeps
theorem keep_opsC_main_v20 (V : Valuation τ sig (Elt Ideal)) :
    after (opsC (F := Ideal)) V (Proc.devRef .tc main_v20) = V (Proc.devRef .tc main_v20) := by seg_keeps
theorem keep_opsD_main_v37 (V : Valuation τ sig (Elt Ideal)) :
    after (opsD (F := Ideal)) V (Proc.devRef .tc main_v37) = V (Proc.devRef .tc main_v37) := by seg_keeps
theorem keep_opsE_main_v45 (V : Valuation τ sig (Elt Ideal)) :
    after (opsE (F := Ideal)) V (Proc.devRef .tc main_v45) = V (Proc.devRef .tc main_v45) := by seg_keeps
theorem keep_opsF_main_v45 (V : Valuation τ sig (Elt Ideal)) :
    after (opsF (F := Ideal)) V (Proc.devRef .tc main_v45) = V (Proc.devRef .tc main_v45) := by seg_keeps

/-! ## What each stretch computes, over any contents it is entered with -/

theorem segA1_src (V : Valuation τ sig (Elt Ideal)) :
    after (opsA1 (F := Ideal)) V (Proc.devRef .tc main_v1) = Cert.KernelIdeal.Hand.withLoops (V (Proc.devRef .tc main_arg2)) := by
  after_results_simp
  rfl
theorem segA1_dst (V : Valuation τ sig (Elt Ideal)) :
    after (opsA1 (F := Ideal)) V (Proc.devRef .tc main_v2) = Cert.KernelIdeal.Hand.withLoops (V (Proc.devRef .tc main_arg3)) := by
  after_results_simp
  rfl
theorem segA1_mask (V : Valuation τ sig (Elt Ideal)) :
    after (opsA1 (F := Ideal)) V (Proc.devRef .tc main_v8) = Cert.KernelIdeal.Hand.hasEdge (Cert.KernelIdeal.Hand.withLoops (V (Proc.devRef .tc main_arg3))) := by
  after_results_simp
  rfl
theorem segA1_recip (V : Valuation τ sig (Elt Ideal)) :
    after (opsA1 (F := Ideal)) V (Proc.devRef .tc main_v10) = Cert.KernelIdeal.Hand.recipDegree (Cert.KernelIdeal.Hand.withLoops (V (Proc.devRef .tc main_arg3))) := by
  after_results_simp
  rfl
theorem segA1_zero (V : Valuation τ sig (Elt Ideal)) :
    after (opsA1 (F := Ideal)) V (Proc.devRef .tc main_cst_3) = constant (F := Ideal) S_ .f32 0x00000000#32 := by
  after_results_simp
theorem segA2_nodeWeight (V : Valuation τ sig (Elt Ideal)) :
    after (opsA2 (F := Ideal)) V (Proc.devRef .tc main_v11)
      = Cert.KernelIdeal.Hand.nodeWeight (V (Proc.devRef .tc main_v8)) (V (Proc.devRef .tc main_v10)) (V (Proc.devRef .tc main_cst_3)) := by
  after_results
  rfl
theorem segA3_edgeWeight (V : Valuation τ sig (Elt Ideal)) :
    after (opsA3 (F := Ideal)) V (Proc.devRef .tc main_v18)
      = Cert.KernelIdeal.Hand.gatherWeight (V (Proc.devRef .tc main_v11)) (V (Proc.devRef .tc main_v2)) := by
  after_results_simp
  rfl
theorem segB_avg (V : Valuation τ sig (Elt Ideal)) :
    after (opsB (F := Ideal)) V (Proc.devRef .tc main_v20) = Cert.KernelIdeal.Hand.avgStart (V (Proc.devRef .tc main_arg0)) := by
  after_results_simp
  rfl
theorem segB_proj (V : Valuation τ sig (Elt Ideal)) :
    after (opsB (F := Ideal)) V (Proc.devRef .tc main_v24)
      = refLin (V (Proc.devRef .tc main_arg0)) (refMat0 (V (Proc.devRef .tc main_arg1))) := by
  after_results_simp
  rfl
theorem segC_agg (V : Valuation τ sig (Elt Ideal)) :
    after (opsC (F := Ideal)) V (Proc.devRef .tc main_v37)
      = Cert.KernelIdeal.Hand.aggregate (V (Proc.devRef .tc main_v24)) (V (Proc.devRef .tc main_v1)) (V (Proc.devRef .tc main_v2))
          (V (Proc.devRef .tc main_v18)) := by
  after_results_simp
  rfl
theorem segD_avg (V : Valuation τ sig (Elt Ideal)) :
    after (opsD (F := Ideal)) V (Proc.devRef .tc main_v45)
      = refNormAvg (V (Proc.devRef .tc main_v37)) (V (Proc.devRef .tc main_v20)) := by
  after_results_simp
  rfl
theorem segE_proj (V : Valuation τ sig (Elt Ideal)) :
    after (opsE (F := Ideal)) V (Proc.devRef .tc main_v49)
      = refLin (V (Proc.devRef .tc main_v37)) (refMat1 (V (Proc.devRef .tc main_arg1))) := by
  after_results_simp
  rfl
theorem segF_agg (V : Valuation τ sig (Elt Ideal)) :
    after (opsF (F := Ideal)) V (Proc.devRef .tc main_v62)
      = Cert.KernelIdeal.Hand.aggregate (V (Proc.devRef .tc main_v49)) (V (Proc.devRef .tc main_v1)) (V (Proc.devRef .tc main_v2))
          (V (Proc.devRef .tc main_v18)) := by
  after_results_simp
  rfl
theorem segG_avg (V : Valuation τ sig (Elt Ideal)) :
    after (opsG (F := Ideal)) V (Proc.devRef .tc main_v70)
      = refNormAvg (V (Proc.devRef .tc main_v62)) (V (Proc.devRef .tc main_v45)) := by
  after_results_simp
  rfl

/-! ## The two spellings of a layer's matrix agree -/

theorem refMat0_eq (W : Wts) : refMat0 W = Cert.KernelIdeal.Hand.layerMat0 W := by
  funext i
  obtain ⟨k, q, rfl⟩ : ∃ (k q : Fin 100), i = ix2 k q := ⟨i 0, i 1, eq_ix2 i⟩
  rw [refMat0_apply]
  exact (Cert.KernelIdeal.Hand.layerMat0_apply W k q).symm

theorem refMat1_eq (W : Wts) : refMat1 W = Cert.KernelIdeal.Hand.layerMat1 W := by
  funext i
  obtain ⟨k, q, rfl⟩ : ∃ (k q : Fin 100), i = ix2 k q := ⟨i 0, i 1, eq_ix2 i⟩
  rw [refMat1_apply]
  exact (Cert.KernelIdeal.Hand.layerMat1_apply W k q).symm

/-! ## The result -/

/-- After the whole line the result buffer holds the same function of the four arguments as the other program's
    result. -/
theorem result_after (V : Valuation τ sig (Elt Ideal)) :
    after (ops (F := Ideal)) V (Proc.devRef .tc main_v70)
      = Cert.KernelIdeal.Hand.result (V (Proc.devRef .tc main_arg0)) (V (Proc.devRef .tc main_arg1)) (V (Proc.devRef .tc main_arg2))
          (V (Proc.devRef .tc main_arg3)) := by
  rw [after_ops]
  -- the last normalisation, the second aggregation, the running average carried to it
  rw [segG_avg, segF_agg, keep_opsF_main_v45, keep_opsE_main_v45, segD_avg]
  -- the second projection, of the first aggregation
  rw [segE_proj, keep_opsD_main_v37, segC_agg, keep_opsC_main_v20, segB_avg, segB_proj]
  -- the edge lists and weights, the same at both aggregations
  rw [keep_opsE_main_v1, keep_opsD_main_v1, keep_opsC_main_v1, keep_opsB_main_v1, keep_opsA3_main_v1, keep_opsA2_main_v1,
    segA1_src]
  rw [keep_opsE_main_v18, keep_opsD_main_v18, keep_opsC_main_v18, keep_opsB_main_v18, segA3_edgeWeight, segA2_nodeWeight,
    segA1_mask, segA1_recip, segA1_zero]
  rw [keep_opsE_main_v2, keep_opsD_main_v2, keep_opsC_main_v2, keep_opsB_main_v2, keep_opsA3_main_v2, keep_opsA2_main_v2,
    segA1_dst]
  -- the arguments
  rw [keep_opsD_main_arg1, keep_opsC_main_arg1, keep_opsB_main_arg1, keep_opsA3_main_arg1, keep_opsA2_main_arg1,
    keep_opsA1_main_arg1, keep_opsA3_main_arg0, keep_opsA2_main_arg0, keep_opsA1_main_arg0]
  rw [refNormAvg_eq, refNormAvg_eq, refLin_eq, refLin_eq, refMat0_eq, refMat1_eq]
  rfl

end Cert.ReferenceIdeal.Hand

end
-- ==== Proof.lean ====
/-
  A two-layer graph convolution with row-normalised running average, as a kernel program and as its reference.

  Both programs compute, from node features x [50000, 100], stacked weights W [2, 100, 100] and 800000 edges:
  the edge list with a self loop per node; each edge's weight, the reciprocal of its destination's degree; and then
  twice — project the current features by a layer's matrix (x · W[l]ᵀ), sum the projected rows of the sources into the
  destinations with the edge weights, and add the result, each row divided by the larger of its Euclidean norm and a
  fixed word and scaled by a fixed word, onto the running average, which starts at the features times that word.

  The kernel program runs the two projections and the two normalisations as kernels over ten blocks of 5000 rows and
  everything else as host operations; the reference runs host operations only.  Over the extended reals the
  projection kernel's block is the block of the whole product (a change of float format is the identity; the
  contraction is the same sum), the normalising kernel's block uses its rows alone, and the remaining host
  operations are the same operations applied to values shown equal; so the two results are one function of the four
  arguments.  No law of arithmetic beyond the reading of each operation at an entry is used, so the precondition is
  never opened.
-/
import proofs.«163798_j63307817943427_1_alg».proof.Defs
import proofs.«163798_j63307817943427_1_alg».proof.Proof.Gen.Kernel
import proofs.«163798_j63307817943427_1_alg».proof.Proof.Gen.Kernel.Skeleton
import proofs.«163798_j63307817943427_1_alg».proof.Proof.Gen.Kernel.Launch
import proofs.«163798_j63307817943427_1_alg».proof.Proof.Gen.Kernel.Points
import proofs.«163798_j63307817943427_1_alg».proof.Proof.Gen.Kernel.Frame
import proofs.«163798_j63307817943427_1_alg».proof.Proof.Gen.KernelIdeal
import proofs.«163798_j63307817943427_1_alg».proof.Proof.Gen.KernelIdeal.Skeleton
import proofs.«163798_j63307817943427_1_alg».proof.Proof.Gen.KernelIdeal.Launch
import proofs.«163798_j63307817943427_1_alg».proof.Proof.Gen.KernelIdeal.Points
import proofs.«163798_j63307817943427_1_alg».proof.Proof.Gen.KernelIdeal.Frame
import proofs.«163798_j63307817943427_1_alg».proof.Proof.Gen.ReferenceIdeal
import proofs.«163798_j63307817943427_1_alg».proof.Proof.Gen.Pre_finite_inputs
import proofs.«163798_j63307817943427_1_alg».proof.Proof.KRun
import proofs.«163798_j63307817943427_1_alg».proof.Proof.KHost
import proofs.«163798_j63307817943427_1_alg».proof.Proof.RStages
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: none of its operations writes one. -/
theorem frame_reference : Cert.frame_ReferenceIdeal := fun m ρ _ =>
  (θ_run Cert.ReferenceIdeal.defs _ _).mono
    (fun _ h c => ⟨(h c _).trans (Cert.ReferenceIdeal.Hand.arg0_after _), (h c _).trans (Cert.ReferenceIdeal.Hand.arg1_after _),
      (h c _).trans (Cert.ReferenceIdeal.Hand.arg2_after _), (h c _).trans (Cert.ReferenceIdeal.Hand.arg3_after _)⟩)
    (Cert.ReferenceIdeal.ValueP.run_after (F := Ideal) m ρ)

/-- The ideal pass rewrote nothing. -/
theorem preserves : Cert.preserves_Kernel_KernelIdeal := trivial

/-- Both idealized programs end with the same function of the four arguments in their result buffers. -/
theorem algebraic : Cert.algebraic_KernelIdeal_ReferenceIdeal := by
  intro m ρ m' ρ' _ hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.result_at10 m ρ c), (h c).2⟩)
      (Cert.KernelIdeal.Hand.run_result (F := Ideal) m ρ)
  · refine (θ_run Cert.ReferenceIdeal.defs _ _).mono (fun _ h c => ?_)
      (Cert.ReferenceIdeal.ValueP.run_after (F := Ideal) m' ρ')
    refine ⟨?_, (h c _).trans (Cert.ReferenceIdeal.Hand.arg0_after _), (h c _).trans (Cert.ReferenceIdeal.Hand.arg1_after _),
      (h c _).trans (Cert.ReferenceIdeal.Hand.arg2_after _), (h c _).trans (Cert.ReferenceIdeal.Hand.arg3_after _)⟩
    refine (h c _).trans ((Cert.ReferenceIdeal.Hand.result_after _).trans ?_)
    show Cert.KernelIdeal.Hand.result
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
